-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S160000 : Shape := ⟨1, ![160000]⟩
abbrev S20000 : Shape := ⟨1, ![20000]⟩
abbrev S128x512 : Shape := ⟨2, ![128, 512]⟩
abbrev S512 : Shape := ⟨1, ![512]⟩
abbrev S512x512 : Shape := ⟨2, ![512, 512]⟩
abbrev S512x16 : Shape := ⟨2, ![512, 16]⟩
abbrev S16 : Shape := ⟨1, ![16]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg14 : FVec F S512x16 .f32) (main_arg15 : FVec F S16 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x16 .f32 := Host.absf main_arg14
  let main_cst_20 : FVec F S_ .f32 := constant S_ .f32 0x7F800000#32
  let main_v55 : FVec F S512x16 .f32 := broadcastInDim S512x16 ![] bcast_S_S512x16 main_cst_20
  let main_v56 : IVec S512x16 1 := cmpf .olt main_v54 main_v55
  let main_c_21 : IVec S_ 1 := constantI S_ 1 1#1
  let main_v57 : IVec S_ 1 := (fun x v => Host.reduce IntOp.andi x v reducesTo_S512x16_S_d0_1 h_S_) main_v56 main_c_21
  let main_v58 : IVec S_ 1 := andi main_v53 main_v57
  let main_v59 : FVec F S16 .f32 := Host.absf main_arg15
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  main_v63

def fn_part2 {F : FTy → Type} [FloatOps F] (main_arg10 : FVec F S512x512 .f32) (main_arg11 : FVec F S512 .f32) (main_arg12 : FVec F S512x512 .f32) (main_arg13 : FVec F S512 .f32) (main_arg14 : FVec F S512x16 .f32) (main_arg15 : FVec F S16 .f32) (main_v33 : IVec S_ 1) : IVec S_ 1 :=
  let main_v34 : FVec F S512x512 .f32 := Host.absf main_arg10
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg11
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg12
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg13
  let main_cst_18 : FVec F S_ .f32 := constant S_ .f32 0x7F800000#32
  let main_v50 : FVec F S512 .f32 := broadcastInDim S512 ![] bcast_S_S512 main_cst_18
  fn_part3 (F := F) main_arg14 main_arg15 main_v48 main_v49 main_v50

def fn_part1 {F : FTy → Type} [FloatOps F] (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S512x16 .f32) (main_arg15 : FVec F S16 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg7
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg8
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg9
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S20000x128 .f32) (main_arg1 : IVec S160000 32) (main_arg2 : IVec S160000 32) (main_arg3 : IVec S20000 32) (main_arg4 : FVec F S128x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S512x16 .f32) (main_arg15 : FVec F S16 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x512 .f32 := Host.absf main_arg4
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg5
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg6
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg7 main_arg8 main_arg9 main_arg10 main_arg11 main_arg12 main_arg13 main_arg14 main_arg15 main_v13 main_v16
-- ==== Kernel.lean ====
abbrev S20000x128 : Shape := ⟨2, ![20000, 128]⟩
abbrev S160000 : Shape := ⟨1, ![160000]⟩
abbrev S20000 : Shape := ⟨1, ![20000]⟩
abbrev S128x512 : Shape := ⟨2, ![128, 512]⟩
abbrev S512 : Shape := ⟨1, ![512]⟩
abbrev S512x512 : Shape := ⟨2, ![512, 512]⟩
abbrev S512x16 : Shape := ⟨2, ![512, 16]⟩
abbrev S16 : Shape := ⟨1, ![16]⟩
abbrev S_ : Shape := ⟨0, ![]⟩
abbrev S160000x1 : Shape := ⟨2, ![160000, 1]⟩
abbrev S20000x1 : Shape := ⟨2, ![20000, 1]⟩
abbrev S20000x512 : Shape := ⟨2, ![20000, 512]⟩
abbrev S1000x128 : Shape := ⟨2, ![1000, 128]⟩
abbrev S1000x1 : Shape := ⟨2, ![1000, 1]⟩
abbrev S1000x512 : Shape := ⟨2, ![1000, 512]⟩
abbrev S160000x512 : Shape := ⟨2, ![160000, 512]⟩
abbrev S1x512 : Shape := ⟨2, ![1, 512]⟩
abbrev S64x512 : Shape := ⟨2, ![64, 512]⟩
abbrev S64 : Shape := ⟨1, ![64]⟩
abbrev S64x1 : Shape := ⟨2, ![64, 1]⟩
abbrev S64x16 : Shape := ⟨2, ![64, 16]⟩
abbrev S1x16 : Shape := ⟨2, ![1, 16]⟩

abbrev nBuf : Space → Nat
  | .hbm => 134
  | .vmem => 33
  | .smem => 0
  | _ => 0

abbrev hbmTy0_0 (i : Nat) : BufTy := match i % 128 with
  | 0 => ⟨S20000x128, .f32⟩
  | 1 => ⟨S160000, .i32⟩
  | 2 => ⟨S160000, .i32⟩
  | 3 => ⟨S20000, .i32⟩
  | 4 => ⟨S128x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S512x512, .f32⟩
  | 11 => ⟨S512, .f32⟩
  | 12 => ⟨S512x512, .f32⟩
  | 13 => ⟨S512, .f32⟩
  | 14 => ⟨S512x16, .f32⟩
  | 15 => ⟨S16, .f32⟩
  | 16 => ⟨S_, .f32⟩
  | 17 => ⟨S160000, .f32⟩
  | 18 => ⟨S_, .f32⟩
  | 19 => ⟨S20000, .f32⟩
  | 20 => ⟨S160000x1, .i32⟩
  | 21 => ⟨S20000, .f32⟩
  | 22 => ⟨S_, .f32⟩
  | 23 => ⟨S20000, .f32⟩
  | 24 => ⟨S160000x1, .i32⟩
  | 25 => ⟨S20000, .f32⟩
  | 26 => ⟨S_, .f32⟩
  | 27 => ⟨S_, .f32⟩
  | 28 => ⟨S20000, .f32⟩
  | 29 => ⟨S20000, .f32⟩
  | 30 => ⟨S20000, .f32⟩
  | 31 => ⟨S_, .f32⟩
  | 32 => ⟨S_, .f32⟩
  | 33 => ⟨S20000, .f32⟩
  | 34 => ⟨S20000, .f32⟩
  | 35 => ⟨S20000, .f32⟩
  | 36 => ⟨S128x512, .bf16⟩
  | 37 => ⟨S20000x1, .f32⟩
  | 38 => ⟨S20000x512, .f32⟩
  | 39 => ⟨S_, .i32⟩
  | 40 => ⟨S160000, .i32⟩
  | 41 => ⟨S160000, .i1⟩
  | 42 => ⟨S_, .i32⟩
  | 43 => ⟨S160000, .i32⟩
  | 44 => ⟨S160000, .i32⟩
  | 45 => ⟨S160000, .i32⟩
  | 46 => ⟨S160000x1, .i32⟩
  | 47 => ⟨S160000x512, .f32⟩
  | 48 => ⟨S_, .f32⟩
  | 49 => ⟨S20000x512, .f32⟩
  | 50 => ⟨S160000x1, .i32⟩
  | 51 => ⟨S20000x512, .f32⟩
  | 52 => ⟨S20000x1, .f32⟩
  | 53 => ⟨S20000x512, .f32⟩
  | 54 => ⟨S20000x512, .f32⟩
  | 55 => ⟨S1x512, .f32⟩
  | 56 => ⟨S20000x512, .f32⟩
  | 57 => ⟨S20000x512, .f32⟩
  | 58 => ⟨S_, .f32⟩
  | 59 => ⟨S20000x512, .f32⟩
  | 60 => ⟨S20000x512, .f32⟩
  | 61 => ⟨S512x512, .bf16⟩
  | 62 => ⟨S20000x1, .f32⟩
  | 63 => ⟨S20000x512, .f32⟩
  | 64 => ⟨S_, .i32⟩
  | 65 => ⟨S160000, .i32⟩
  | 66 => ⟨S160000, .i1⟩
  | 67 => ⟨S_, .i32⟩
  | 68 => ⟨S160000, .i32⟩
  | 69 => ⟨S160000, .i32⟩
  | 70 => ⟨S160000, .i32⟩
  | 71 => ⟨S160000x1, .i32⟩
  | 72 => ⟨S160000x512, .f32⟩
  | 73 => ⟨S_, .f32⟩
  | 74 => ⟨S20000x512, .f32⟩
  | 75 => ⟨S160000x1, .i32⟩
  | 76 => ⟨S20000x512, .f32⟩
  | 77 => ⟨S20000x1, .f32⟩
  | 78 => ⟨S20000x512, .f32⟩
  | 79 => ⟨S20000x512, .f32⟩
  | 80 => ⟨S1x512, .f32⟩
  | 81 => ⟨S20000x512, .f32⟩
  | 82 => ⟨S20000x512, .f32⟩
  | 83 => ⟨S_, .f32⟩
  | 84 => ⟨S20000x512, .f32⟩
  | 85 => ⟨S20000x512, .f32⟩
  | 86 => ⟨S512x512, .bf16⟩
  | 87 => ⟨S20000x1, .f32⟩
  | 88 => ⟨S20000x512, .f32⟩
  | 89 => ⟨S_, .i32⟩
  | 90 => ⟨S160000, .i32⟩
  | 91 => ⟨S160000, .i1⟩
  | 92 => ⟨S_, .i32⟩
  | 93 => ⟨S160000, .i32⟩
  | 94 => ⟨S160000, .i32⟩
  | 95 => ⟨S160000, .i32⟩
  | 96 => ⟨S160000x1, .i32⟩
  | 97 => ⟨S160000x512, .f32⟩
  | 98 => ⟨S_, .f32⟩
  | 99 => ⟨S20000x512, .f32⟩
  | 100 => ⟨S160000x1, .i32⟩
  | 101 => ⟨S20000x512, .f32⟩
  | 102 => ⟨S20000x1, .f32⟩
  | 103 => ⟨S20000x512, .f32⟩
  | 104 => ⟨S20000x512, .f32⟩
  | 105 => ⟨S1x512, .f32⟩
  | 106 => ⟨S20000x512, .f32⟩
  | 107 => ⟨S20000x512, .f32⟩
  | 108 => ⟨S_, .f32⟩
  | 109 => ⟨S20000x512, .f32⟩
  | 110 => ⟨S20000x512, .f32⟩
  | 111 => ⟨S_, .f32⟩
  | 112 => ⟨S64x512, .f32⟩
  | 113 => ⟨S20000x1, .i32⟩
  | 114 => ⟨S64x512, .f32⟩
  | 115 => ⟨S_, .f32⟩
  | 116 => ⟨S20000, .f32⟩
  | 117 => ⟨S_, .f32⟩
  | 118 => ⟨S64, .f32⟩
  | 119 => ⟨S20000x1, .i32⟩
  | 120 => ⟨S64, .f32⟩
  | 121 => ⟨S_, .f32⟩
  | 122 => ⟨S_, .f32⟩
  | 123 => ⟨S64, .f32⟩
  | 124 => ⟨S64, .f32⟩
  | 125 => ⟨S64x1, .f32⟩
  | 126 => ⟨S64x512, .f32⟩
  | 127 => ⟨S64x512, .f32⟩
  | _ => ⟨S20000x128, .f32⟩

abbrev hbmTy0_1 (i : Nat) : BufTy := match i % 128 with
  | 0 => ⟨S512x512, .bf16⟩
  | 1 => ⟨S64x512, .f32⟩
  | 2 => ⟨S512x512, .bf16⟩
  | 3 => ⟨S64x512, .f32⟩
  | 4 => ⟨S512x16, .bf16⟩
  | 5 => ⟨S64x16, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S1000x1, .f32⟩
  | .local _ .vmem, ⟨3, _⟩ => ⟨S1000x1, .f32⟩
  | .local _ .vmem, ⟨4, _⟩ => ⟨S128x512, .bf16⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x1, .f32⟩
  | .local _ .vmem, ⟨10, _⟩ => ⟨S1000x1, .f32⟩
  | .local _ .vmem, ⟨11, _⟩ => ⟨S512x512, .bf16⟩
  | .local _ .vmem, ⟨12, _⟩ => ⟨S1000x512, .f32⟩
  | .local _ .vmem, ⟨13, _⟩ => ⟨S1000x512, .f32⟩
  | .local _ .vmem, ⟨14, _⟩ => ⟨S1000x512, .f32⟩
  | .local _ .vmem, ⟨15, _⟩ => ⟨S1000x512, .f32⟩
  | .local _ .vmem, ⟨16, _⟩ => ⟨S1000x1, .f32⟩
  | .local _ .vmem, ⟨17, _⟩ => ⟨S1000x1, .f32⟩
  | .local _ .vmem, ⟨18, _⟩ => ⟨S512x512, .bf16⟩
  | .local _ .vmem, ⟨19, _⟩ => ⟨S1000x512, .f32⟩
  | .local _ .vmem, ⟨20, _⟩ => ⟨S1000x512, .f32⟩
  | .local _ .vmem, ⟨21, _⟩ => ⟨S64x512, .f32⟩
  | .local _ .vmem, ⟨22, _⟩ => ⟨S512x512, .bf16⟩
  | .local _ .vmem, ⟨23, _⟩ => ⟨S512, .f32⟩
  | .local _ .vmem, ⟨24, _⟩ => ⟨S64x512, .f32⟩
  | .local _ .vmem, ⟨25, _⟩ => ⟨S64x512, .f32⟩
  | .local _ .vmem, ⟨26, _⟩ => ⟨S512x512, .bf16⟩
  | .local _ .vmem, ⟨27, _⟩ => ⟨S512, .f32⟩
  | .local _ .vmem, ⟨28, _⟩ => ⟨S64x512, .f32⟩
  | .local _ .vmem, ⟨29, _⟩ => ⟨S64x512, .f32⟩
  | .local _ .vmem, ⟨30, _⟩ => ⟨S512x16, .bf16⟩
  | .local _ .vmem, ⟨31, _⟩ => ⟨S16, .f32⟩
  | .local _ .vmem, ⟨32, _⟩ => ⟨S64x16, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v7 : Ref sig .tc := ⟨.hbm, 29, rfl⟩
abbrev main_v8 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call2_cst : Ref sig .tc := ⟨.hbm, 58, rfl⟩
abbrev main_call2_v0 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_6 : Ref sig .tc := ⟨.hbm, 64, rfl⟩
abbrev main_v34 : Ref sig .tc := ⟨.hbm, 65, rfl⟩
abbrev main_v35 : Ref sig .tc := ⟨.hbm, 66, rfl⟩
abbrev main_c_7 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_call3_cst : Ref sig .tc := ⟨.hbm, 83, rfl⟩
abbrev main_call3_v0 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_9 : Ref sig .tc := ⟨.hbm, 89, rfl⟩
abbrev main_v54 : Ref sig .tc := ⟨.hbm, 90, rfl⟩
abbrev main_v55 : Ref sig .tc := ⟨.hbm, 91, rfl⟩
abbrev main_c_10 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_11 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_call4_cst : Ref sig .tc := ⟨.hbm, 108, rfl⟩
abbrev main_call4_v0 : Ref sig .tc := ⟨.hbm, 109, rfl⟩
abbrev main_v70 : Ref sig .tc := ⟨.hbm, 110, rfl⟩
abbrev main_cst_12 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_13 : Ref sig .tc := ⟨.hbm, 115, rfl⟩
abbrev main_v74 : Ref sig .tc := ⟨.hbm, 116, rfl⟩
abbrev main_cst_14 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_15 : Ref sig .tc := ⟨.hbm, 121, rfl⟩
abbrev main_call5_v0 : Ref sig .tc := ⟨.hbm, 122, rfl⟩
abbrev main_call5_v1 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc4_stg0_0 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem1_0 : DmaSem sig := 22
abbrev cc3_sem2_0 : DmaSem sig := 23
abbrev cc3_sem3_0 : DmaSem sig := 24
abbrev cc4_sem0_0 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem1_0 : DmaSem sig := 30
abbrev cc5_sem2_0 : DmaSem sig := 31
abbrev cc5_sem3_0 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S64x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S512x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S64x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S512x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S64x512 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S512x16 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

class Facts₀ : Prop where
  bcast_S_S160000 : S_.BroadcastsInDim S160000 (![] : Fin 0 → Fin S160000.rank)
  bcast_S_S20000 : S_.BroadcastsInDim S20000 (![] : Fin 0 → Fin S20000.rank)
  bcast_S160000_S160000x1_0 : S160000.BroadcastsInDim S160000x1 (![0] : Fin 1 → Fin S160000x1.rank)
  bitsLt_bf16_f32 : FTy.bits .bf16 < FTy.bits .f32
  shapeCasts_S20000_S20000x1 : S20000.ShapeCasts S20000x1
  inb_S1000x128_S1000x128_0_0 : ∀ a, (![0, 0] : Fin 2 → Nat) a + S1000x128.size a ≤ S1000x128.size a
  h_S1000x128 : 0 < S1000x128.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1000x512_S1000x512_0_0 : ∀ a, (![0, 0] : Fin 2 → Nat) a + S1000x512.size a ≤ S1000x512.size a
  h_S1000x512 : 0 < S1000x512.numel
  bcast_S_S20000x512 : S_.BroadcastsInDim S20000x512 (![] : Fin 0 → Fin S20000x512.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  shapeCasts_S1000x512_S1000x512 : S1000x512.ShapeCasts S1000x512
  broadcasts_S1000x1_S1000x512 : S1000x1.Broadcasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S_S64x512 : S_.BroadcastsInDim S64x512 (![] : Fin 0 → Fin S64x512.rank)
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16_S16_0 : ∀ a, (![0] : Fin 1 → Nat) a + S16.size a ≤ S16.size a
  h_S16 : 0 < S16.numel
  shapeCasts_S16_S1x16 : S16.ShapeCasts S1x16
  broadcasts_S1x16_S64x16 : S1x16.Broadcasts S64x16
  inb_S64x16_S64x16_0_0 : ∀ a, (![0, 0] : Fin 2 → Nat) a + S64x16.size a ≤ S64x16.size a
  h_S64x16 : 0 < S64x16.numel
  scatter_S20000_S160000x1_S160000_n_0_0_1_wf : ScatterDims.WF S20000 S160000x1 S160000 [] [0] [0] 1
  dot_S1000x128_S128x512_S1000x512_1_0_0_1_n_n_wf : DotDims.WF S1000x128 S128x512 S1000x512 [1] [0] [0] [1] [] []
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S1000x512_S512x512_S1000x512_1_0_0_1_n_n_wf : DotDims.WF S1000x512 S512x512 S1000x512 [1] [0] [0] [1] [] []
  scatter_S64x512_S20000x1_S20000x512_1_0_0_1_wf : ScatterDims.WF S64x512 S20000x1 S20000x512 [1] [0] [0] 1
  scatter_S64_S20000x1_S20000_n_0_0_1_wf : ScatterDims.WF S64 S20000x1 S20000 [] [0] [0] 1
  dot_S64x512_S512x512_S64x512_1_0_0_1_n_n_wf : DotDims.WF S64x512 S512x512 S64x512 [1] [0] [0] [1] [] []
  dot_S64x512_S512x16_S64x16_1_0_0_1_n_n_wf : DotDims.WF S64x512 S512x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S20000x128.size a
  hwx0_0 : ∀ i : grid0.Coords, EltTy.bits .f32 = 32 ∨ (Rect.block (s := S20000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S20000x1.size a
  hwx0_1 : ∀ i : grid0.Coords, EltTy.bits .f32 = 32 ∨ (Rect.block (s := S20000x1) S1000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S20000x512.size a
  hwx0_3 : ∀ i : grid0.Coords, EltTy.bits .f32 = 32 ∨ (Rect.block (s := S20000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S20000x512.size a
  hwx1_0 : ∀ i : grid1.Coords, EltTy.bits .f32 = 32 ∨ (Rect.block (s := S20000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S20000x1.size a
  hwx1_1 : ∀ i : grid1.Coords, EltTy.bits .f32 = 32 ∨ (Rect.block (s := S20000x1) S1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S20000x512.size a
  hwx1_3 : ∀ i : grid1.Coords, EltTy.bits .f32 = 32 ∨ (Rect.block (s := S20000x512) S1000x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S20000x512.size a
  hwx2_0 : ∀ i : grid2.Coords, EltTy.bits .f32 = 32 ∨ (Rect.block (s := S20000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S20000x1.size a
  hwx2_1 : ∀ i : grid2.Coords, EltTy.bits .f32 = 32 ∨ (Rect.block (s := S20000x1) S1000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .bf16 = 32 ∨ (Rect.block (s := S512x512) S512x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x512.size a ≤ S20000x512.size a
  hwx2_3 : ∀ i : grid2.Coords, EltTy.bits .f32 = 32 ∨ (Rect.block (s := S20000x512) S1000x512.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S64x512.size a ≤ S64x512.size a
  hwx3_0 : ∀ i : grid3.Coords, EltTy.bits .f32 = 32 ∨ (Rect.block (s := S64x512) S64x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .bf16 = 32 ∨ (Rect.block (s := S512x512) S512x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512.size a ≤ S512.size a
  hwx3_2 : ∀ i : grid3.Coords, EltTy.bits .f32 = 32 ∨ (Rect.block (s := S512) S512.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S64x512.size a ≤ S64x512.size a
  hwx3_3 : ∀ i : grid3.Coords, EltTy.bits .f32 = 32 ∨ (Rect.block (s := S64x512) S64x512.size (cc3_transform_3 i) (hinb3_3 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S64x512.size a ≤ S64x512.size a
  hwx4_0 : ∀ i : grid4.Coords, EltTy.bits .f32 = 32 ∨ (Rect.block (s := S64x512) S64x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .bf16 = 32 ∨ (Rect.block (s := S512x512) S512x512.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512.size a ≤ S512.size a
  hwx4_2 : ∀ i : grid4.Coords, EltTy.bits .f32 = 32 ∨ (Rect.block (s := S512) S512.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S64x512.size a ≤ S64x512.size a
  hwx4_3 : ∀ i : grid4.Coords, EltTy.bits .f32 = 32 ∨ (Rect.block (s := S64x512) S64x512.size (cc4_transform_3 i) (hinb4_3 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S64x512.size a ≤ S64x512.size a
  hwx5_0 : ∀ i : grid5.Coords, EltTy.bits .f32 = 32 ∨ (Rect.block (s := S64x512) S64x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x16.size a ≤ S512x16.size a
  hwx5_1 : ∀ i : grid5.Coords, EltTy.bits .bf16 = 32 ∨ (Rect.block (s := S512x16) S512x16.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S16.size a ≤ S16.size a
  hwx5_2 : ∀ i : grid5.Coords, EltTy.bits .f32 = 32 ∨ (Rect.block (s := S16) S16.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S64x16.size a ≤ S64x16.size a
  hwx5_3 : ∀ i : grid5.Coords, EltTy.bits .f32 = 32 ∨ (Rect.block (s := S64x16) S64x16.size (cc5_transform_3 i) (hinb5_3 i)).WholeWords (EltTy.packing .f32)

variable [Facts₀]

def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def scatter_S64x512_S20000x1_S20000x512_1_0_0_1 : ScatterDims S64x512 S20000x1 S20000x512 where
  updateWindowDims := [1]
  insertedWindowDims := [0]
  scatterDimsToOperandDims := [0]
  indexVectorDim := 1
  wf := scatter_S64x512_S20000x1_S20000x512_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x16_S64x16_1_0_0_1_n_n : DotDims S64x512 S512x16 S64x16 where
  lhsContracting := [1]
  rhsContracting := [0]
  lhsNonContracting := [0]
  rhsNonContracting := [1]
  lhsBatch := []
  rhsBatch := []
  wf := dot_S64x512_S512x16_S64x16_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v81) S64x512.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v82) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S64x512.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v83) S64x512.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v84) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v85) S64x512.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v85) S64x512.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v86) S512x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg15) S16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v87) S64x16.size cc5_transform_3 reads5_3 true false 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S20000x128 : Shape := ⟨2, ![20000, 128]⟩
abbrev S160000 : Shape := ⟨1, ![160000]⟩
abbrev S20000 : Shape := ⟨1, ![20000]⟩
abbrev S128x512 : Shape := ⟨2, ![128, 512]⟩
abbrev S512 : Shape := ⟨1, ![512]⟩
abbrev S512x512 : Shape := ⟨2, ![512, 512]⟩
abbrev S512x16 : Shape := ⟨2, ![512, 16]⟩
abbrev S16 : Shape := ⟨1, ![16]⟩
abbrev S_ : Shape := ⟨0, ![]⟩
abbrev S160000x1 : Shape := ⟨2, ![160000, 1]⟩
abbrev S20000x1 : Shape := ⟨2, ![20000, 1]⟩
abbrev S20000x512 : Shape := ⟨2, ![20000, 512]⟩
abbrev S160000x512 : Shape := ⟨2, ![160000, 512]⟩
abbrev S1x512 : Shape := ⟨2, ![1, 512]⟩
abbrev S64x512 : Shape := ⟨2, ![64, 512]⟩
abbrev S64 : Shape := ⟨1, ![64]⟩
abbrev S64x1 : Shape := ⟨2, ![64, 1]⟩
abbrev S64x16 : Shape := ⟨2, ![64, 16]⟩
abbrev S1x16 : Shape := ⟨2, ![1, 16]⟩

abbrev nBuf : Space → Nat
  | .hbm => 149
  | .vmem => 0
  | .smem => 0
  | _ => 0

abbrev hbmTy0_0 (i : Nat) : BufTy := match i % 128 with
  | 0 => ⟨S20000x128, .f32⟩
  | 1 => ⟨S160000, .i32⟩
  | 2 => ⟨S160000, .i32⟩
  | 3 => ⟨S20000, .i32⟩
  | 4 => ⟨S128x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S512x512, .f32⟩
  | 11 => ⟨S512, .f32⟩
  | 12 => ⟨S512x512, .f32⟩
  | 13 => ⟨S512, .f32⟩
  | 14 => ⟨S512x16, .f32⟩
  | 15 => ⟨S16, .f32⟩
  | 16 => ⟨S_, .f32⟩
  | 17 => ⟨S160000, .f32⟩
  | 18 => ⟨S_, .f32⟩
  | 19 => ⟨S20000, .f32⟩
  | 20 => ⟨S160000x1, .i32⟩
  | 21 => ⟨S20000, .f32⟩
  | 22 => ⟨S_, .f32⟩
  | 23 => ⟨S20000, .f32⟩
  | 24 => ⟨S160000x1, .i32⟩
  | 25 => ⟨S20000, .f32⟩
  | 26 => ⟨S_, .f32⟩
  | 27 => ⟨S_, .f32⟩
  | 28 => ⟨S20000, .f32⟩
  | 29 => ⟨S20000, .f32⟩
  | 30 => ⟨S20000, .f32⟩
  | 31 => ⟨S_, .f32⟩
  | 32 => ⟨S_, .f32⟩
  | 33 => ⟨S20000, .f32⟩
  | 34 => ⟨S20000, .f32⟩
  | 35 => ⟨S20000, .f32⟩
  | 36 => ⟨S20000x1, .f32⟩
  | 37 => ⟨S20000x128, .f32⟩
  | 38 => ⟨S20000x128, .f32⟩
  | 39 => ⟨S20000x512, .f32⟩
  | 40 => ⟨S_, .i32⟩
  | 41 => ⟨S160000, .i32⟩
  | 42 => ⟨S160000, .i1⟩
  | 43 => ⟨S_, .i32⟩
  | 44 => ⟨S160000, .i32⟩
  | 45 => ⟨S160000, .i32⟩
  | 46 => ⟨S160000, .i32⟩
  | 47 => ⟨S160000x1, .i32⟩
  | 48 => ⟨S160000x512, .f32⟩
  | 49 => ⟨S_, .f32⟩
  | 50 => ⟨S20000x512, .f32⟩
  | 51 => ⟨S160000x1, .i32⟩
  | 52 => ⟨S20000x512, .f32⟩
  | 53 => ⟨S20000x1, .f32⟩
  | 54 => ⟨S20000x512, .f32⟩
  | 55 => ⟨S20000x512, .f32⟩
  | 56 => ⟨S1x512, .f32⟩
  | 57 => ⟨S20000x512, .f32⟩
  | 58 => ⟨S20000x512, .f32⟩
  | 59 => ⟨S_, .f32⟩
  | 60 => ⟨S20000x512, .f32⟩
  | 61 => ⟨S20000x512, .f32⟩
  | 62 => ⟨S20000x1, .f32⟩
  | 63 => ⟨S20000x512, .f32⟩
  | 64 => ⟨S20000x512, .f32⟩
  | 65 => ⟨S20000x512, .f32⟩
  | 66 => ⟨S_, .i32⟩
  | 67 => ⟨S160000, .i32⟩
  | 68 => ⟨S160000, .i1⟩
  | 69 => ⟨S_, .i32⟩
  | 70 => ⟨S160000, .i32⟩
  | 71 => ⟨S160000, .i32⟩
  | 72 => ⟨S160000, .i32⟩
  | 73 => ⟨S160000x1, .i32⟩
  | 74 => ⟨S160000x512, .f32⟩
  | 75 => ⟨S_, .f32⟩
  | 76 => ⟨S20000x512, .f32⟩
  | 77 => ⟨S160000x1, .i32⟩
  | 78 => ⟨S20000x512, .f32⟩
  | 79 => ⟨S20000x1, .f32⟩
  | 80 => ⟨S20000x512, .f32⟩
  | 81 => ⟨S20000x512, .f32⟩
  | 82 => ⟨S1x512, .f32⟩
  | 83 => ⟨S20000x512, .f32⟩
  | 84 => ⟨S20000x512, .f32⟩
  | 85 => ⟨S_, .f32⟩
  | 86 => ⟨S20000x512, .f32⟩
  | 87 => ⟨S20000x512, .f32⟩
  | 88 => ⟨S20000x1, .f32⟩
  | 89 => ⟨S20000x512, .f32⟩
  | 90 => ⟨S20000x512, .f32⟩
  | 91 => ⟨S20000x512, .f32⟩
  | 92 => ⟨S_, .i32⟩
  | 93 => ⟨S160000, .i32⟩
  | 94 => ⟨S160000, .i1⟩
  | 95 => ⟨S_, .i32⟩
  | 96 => ⟨S160000, .i32⟩
  | 97 => ⟨S160000, .i32⟩
  | 98 => ⟨S160000, .i32⟩
  | 99 => ⟨S160000x1, .i32⟩
  | 100 => ⟨S160000x512, .f32⟩
  | 101 => ⟨S_, .f32⟩
  | 102 => ⟨S20000x512, .f32⟩
  | 103 => ⟨S160000x1, .i32⟩
  | 104 => ⟨S20000x512, .f32⟩
  | 105 => ⟨S20000x1, .f32⟩
  | 106 => ⟨S20000x512, .f32⟩
  | 107 => ⟨S20000x512, .f32⟩
  | 108 => ⟨S1x512, .f32⟩
  | 109 => ⟨S20000x512, .f32⟩
  | 110 => ⟨S20000x512, .f32⟩
  | 111 => ⟨S_, .f32⟩
  | 112 => ⟨S20000x512, .f32⟩
  | 113 => ⟨S20000x512, .f32⟩
  | 114 => ⟨S_, .f32⟩
  | 115 => ⟨S64x512, .f32⟩
  | 116 => ⟨S20000x1, .i32⟩
  | 117 => ⟨S64x512, .f32⟩
  | 118 => ⟨S_, .f32⟩
  | 119 => ⟨S20000, .f32⟩
  | 120 => ⟨S_, .f32⟩
  | 121 => ⟨S64, .f32⟩
  | 122 => ⟨S20000x1, .i32⟩
  | 123 => ⟨S64, .f32⟩
  | 124 => ⟨S_, .f32⟩
  | 125 => ⟨S_, .f32⟩
  | 126 => ⟨S64, .f32⟩
  | 127 => ⟨S64, .f32⟩
  | _ => ⟨S20000x128, .f32⟩

abbrev hbmTy0_1 (i : Nat) : BufTy := match i % 128 with
  | 0 => ⟨S64x1, .f32⟩
  | 1 => ⟨S64x512, .f32⟩
  | 2 => ⟨S64x512, .f32⟩
  | 3 => ⟨S64x512, .f32⟩
  | 4 => ⟨S1x512, .f32⟩
  | 5 => ⟨S64x512, .f32⟩
  | 6 => ⟨S64x512, .f32⟩
  | 7 => ⟨S_, .f32⟩
  | 8 => ⟨S64x512, .f32⟩
  | 9 => ⟨S64x512, .f32⟩
  | 10 => ⟨S64x512, .f32⟩
  | 11 => ⟨S1x512, .f32⟩
  | 12 => ⟨S64x512, .f32⟩
  | 13 => ⟨S64x512, .f32⟩
  | 14 => ⟨S_, .f32⟩
  | 15 => ⟨S64x512, .f32⟩
  | 16 => ⟨S64x512, .f32⟩
  | 17 => ⟨S64x16, .f32⟩
  | 18 => ⟨S1x16, .f32⟩
  | 19 => ⟨S64x16, .f32⟩
  | 20 => ⟨S64x16, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v7 : Ref sig .tc := ⟨.hbm, 29, rfl⟩
abbrev main_v8 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_5 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_call2_cst : Ref sig .tc := ⟨.hbm, 59, rfl⟩
abbrev main_call2_v0 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_6 : Ref sig .tc := ⟨.hbm, 66, rfl⟩
abbrev main_v36 : Ref sig .tc := ⟨.hbm, 67, rfl⟩
abbrev main_v37 : Ref sig .tc := ⟨.hbm, 68, rfl⟩
abbrev main_c_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_call3_cst : Ref sig .tc := ⟨.hbm, 85, rfl⟩
abbrev main_call3_v0 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_9 : Ref sig .tc := ⟨.hbm, 92, rfl⟩
abbrev main_v57 : Ref sig .tc := ⟨.hbm, 93, rfl⟩
abbrev main_v58 : Ref sig .tc := ⟨.hbm, 94, rfl⟩
abbrev main_c_10 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_call4_cst : Ref sig .tc := ⟨.hbm, 111, rfl⟩
abbrev main_call4_v0 : Ref sig .tc := ⟨.hbm, 112, rfl⟩
abbrev main_v73 : Ref sig .tc := ⟨.hbm, 113, rfl⟩
abbrev main_cst_12 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_13 : Ref sig .tc := ⟨.hbm, 118, rfl⟩
abbrev main_v77 : Ref sig .tc := ⟨.hbm, 119, rfl⟩
abbrev main_cst_14 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_15 : Ref sig .tc := ⟨.hbm, 124, rfl⟩
abbrev main_call5_v0 : Ref sig .tc := ⟨.hbm, 125, rfl⟩
abbrev main_call5_v1 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_call6_cst : Ref sig .tc := ⟨.hbm, 135, rfl⟩
abbrev main_call6_v0 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_call7_cst : Ref sig .tc := ⟨.hbm, 142, rfl⟩
abbrev main_call7_v0 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S_S20000 : S_.BroadcastsInDim S20000 (![] : Fin 0 → Fin S20000.rank)
  bcast_S160000_S160000x1_0 : S160000.BroadcastsInDim S160000x1 (![0] : Fin 1 → Fin S160000x1.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S20000x512 : S_.BroadcastsInDim S20000x512 (![] : Fin 0 → Fin S20000x512.rank)
  bcast_S20000x1_S20000x512_0_1 : S20000x1.BroadcastsInDim S20000x512 (![0, 1] : Fin 2 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S64x512 : S_.BroadcastsInDim S64x512 (![] : Fin 0 → Fin S64x512.rank)
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  bcast_S1x512_S64x512_0_1 : S1x512.BroadcastsInDim S64x512 (![0, 1] : Fin 2 → Fin S64x512.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  scatter_S20000_S160000x1_S160000_n_0_0_1_wf : ScatterDims.WF S20000 S160000x1 S160000 [] [0] [0] 1
  dot_S20000x128_S128x512_S20000x512_1_0_0_1_n_n_wf : DotDims.WF S20000x128 S128x512 S20000x512 [1] [0] [0] [1] [] []
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S20000x512_S512x512_S20000x512_1_0_0_1_n_n_wf : DotDims.WF S20000x512 S512x512 S20000x512 [1] [0] [0] [1] [] []
  scatter_S64x512_S20000x1_S20000x512_1_0_0_1_wf : ScatterDims.WF S64x512 S20000x1 S20000x512 [1] [0] [0] 1
  scatter_S64_S20000x1_S20000_n_0_0_1_wf : ScatterDims.WF S64 S20000x1 S20000 [] [0] [0] 1
  dot_S64x512_S512x512_S64x512_1_0_0_1_n_n_wf : DotDims.WF S64x512 S512x512 S64x512 [1] [0] [0] [1] [] []
  dot_S64x512_S512x16_S64x16_1_0_0_1_n_n_wf : DotDims.WF S64x512 S512x16 S64x16 [1] [0] [0] [1] [] []

variable [Facts₀]

def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def dot_S20000x128_S128x512_S20000x512_1_0_0_1_n_n : DotDims S20000x128 S128x512 S20000x512 where
  lhsContracting := [1]
  rhsContracting := [0]
  lhsNonContracting := [0]
  rhsNonContracting := [1]
  lhsBatch := []
  rhsBatch := []
  wf := dot_S20000x128_S128x512_S20000x512_1_0_0_1_n_n_wf
def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def scatter_S64x512_S20000x1_S20000x512_1_0_0_1 : ScatterDims S64x512 S20000x1 S20000x512 where
  updateWindowDims := [1]
  insertedWindowDims := [0]
  scatterDimsToOperandDims := [0]
  indexVectorDim := 1
  wf := scatter_S64x512_S20000x1_S20000x512_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x16_S64x16_1_0_0_1_n_n : DotDims S64x512 S512x16 S64x16 where
  lhsContracting := [1]
  rhsContracting := [0]
  lhsNonContracting := [0]
  rhsNonContracting := [1]
  lhsBatch := []
  rhsBatch := []
  wf := dot_S64x512_S512x16_S64x16_1_0_0_1_n_n_wf

class Facts : Prop extends Facts₀ where

variable [Facts]
-- ==== Proof.KernelRun.lean ====
/-
  The idealized kernel program's run, read for values. @main is six pallas_call regions among stretches of host
  operations; the library's theorem for such a program (a launch over a list of host segments and regions) ends every
  weakly fair execution in a state whose unscoped buffers hold the last segment boundary's contents: the fold of the
  host stretches and of the regions' write-backs from the launch memory. The frame claim keeps of that only the argument
  arrays; here the same run is stated with everything it knows, so that a result buffer can be read off the fold.
-/
import proofs.«170863_j1554778161831_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and on every core each unscoped buffer then holds
    what the fold through @main's twenty-four segments leaves in it. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W24 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h => h)

/-- The kernel program's result buffer after the run: what the fold leaves at `main_v87`. -/
theorem run_result : θ_run defs (onTc (τ := τ) (main (F := F))) ⟨m, fun _ => 0, ρ⟩ (fun r => ∀ c : Dev nD,
      r.2.mem ((c.tc : Thread nD τ).loc main_v87) = W24 m ρ c (Proc.devRef .tc main_v87)) :=
  (θ_run defs _ _).mono (fun r h c => h c _ (mem_uc main_v87 (by decide))) (run_fold m ρ)

end Cert.KernelIdeal.Whole

end
-- ==== Proof.Keep.lean ====
/-
  What passes through the kernel program untouched. The sixteen argument arrays are written by no host operation and by
  no pallas_call; the two degree factors (the reciprocal square roots of the clipped out- and in-degrees) are computed
  once, before the first pallas_call, and never written again. Every later stage reads them, so along the fold through
  @main's segments they keep the contents they have at the first pallas_call's entry — and the arguments those of the
  launch memory. A host stretch keeps a buffer none of its operations writes; a pallas_call keeps every buffer that is
  not one of its windows' arrays, and an input window's array as well.
-/
import proofs.«170863_j1554778161831_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]

/-- The argument arrays. -/
def args : List (Ref sig .tc) := [main_arg0, main_arg1, main_arg2, main_arg3, main_arg4, main_arg5, main_arg6, main_arg7, main_arg8, main_arg9, main_arg10, main_arg11, main_arg12, main_arg13, main_arg14, main_arg15]

/-- The argument arrays and the two degree factors. -/
def kept : List (Ref sig .tc) := [main_arg0, main_arg1, main_arg2, main_arg3, main_arg4, main_arg5, main_arg6, main_arg7, main_arg8, main_arg9, main_arg10, main_arg11, main_arg12, main_arg13, main_arg14, main_arg15, main_v8, main_v10]

/-- Two valuations agree on a list of buffers. -/
def Same (L : List (Ref sig .tc)) (Y Z : Valuation τ sig (Elt F)) : Prop :=
  ∀ b ∈ L, Y (Proc.devRef .tc b) = Z (Proc.devRef .tc b)

theorem Same.trans {L : List (Ref sig .tc)} {X Y Z : Valuation τ sig (Elt F)} (h₁ : Same L X Y) (h₂ : Same L Y Z) : Same L X Z :=
  fun b hb => (h₁ b hb).trans (h₂ b hb)

theorem Same.args {Y Z : Valuation τ sig (Elt F)} (h : Same kept Y Z) : Same args Y Z :=
  fun b hb => h b (by
    simp only [Keep.args, List.mem_cons, List.mem_singleton, List.not_mem_nil, or_false] at hb
    simp only [kept, List.mem_cons, List.mem_singleton, List.not_mem_nil, or_false]
    tauto)

/-- A stretch of host operations keeps a buffer none of them writes. -/
theorem same_after (L : List (Ref sig .tc)) (ops : List (HloOp τ sig (Elt F))) (Y : Valuation τ sig (Elt F))
    (h : ∀ b ∈ L, ∀ op ∈ ops, Proc.devRef .tc b ∉ op.writes) : Same L (StableHlo.after ops Y) Y :=
  fun b hb => StableHlo.after_of_forall_not_mem ops Y (h b hb)

/-! ## No host stretch writes a kept buffer -/

theorem unwritten_hostOps0 : ∀ b ∈ args, ∀ op ∈ (hostOps0 : List (HloOp τ sig (Elt F))), Proc.devRef .tc b ∉ op.writes := by
  intro b hb
  simp only [args, List.mem_cons, List.mem_singleton, List.not_mem_nil, or_false] at hb
  rcases hb with rfl | rfl | rfl | rfl | rfl | rfl | rfl | rfl | rfl | rfl | rfl | rfl | rfl | rfl | rfl | rfl <;>
  exact List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps0_1 : ∀ b ∈ args, ∀ op ∈ (hostOps0_1 : List (HloOp τ sig (Elt F))), Proc.devRef .tc b ∉ op.writes := by
  intro b hb
  simp only [args, List.mem_cons, List.mem_singleton, List.not_mem_nil, or_false] at hb
  rcases hb with rfl | rfl | rfl | rfl | rfl | rfl | rfl | rfl | rfl | rfl | rfl | rfl | rfl | rfl | rfl | rfl <;>
  exact List.forall_iff_forall_mem.mp (by
    simp only [hostOps0_1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps0_2 : ∀ b ∈ args, ∀ op ∈ (hostOps0_2 : List (HloOp τ sig (Elt F))), Proc.devRef .tc b ∉ op.writes := by
  intro b hb
  simp only [args, List.mem_cons, List.mem_singleton, List.not_mem_nil, or_false] at hb
  rcases hb with rfl | rfl | rfl | rfl | rfl | rfl | rfl | rfl | rfl | rfl | rfl | rfl | rfl | rfl | rfl | rfl <;>
  exact List.forall_iff_forall_mem.mp (by
    simp only [hostOps0_2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps0_3 : ∀ b ∈ args, ∀ op ∈ (hostOps0_3 : List (HloOp τ sig (Elt F))), Proc.devRef .tc b ∉ op.writes := by
  intro b hb
  simp only [args, List.mem_cons, List.mem_singleton, List.not_mem_nil, or_false] at hb
  rcases hb with rfl | rfl | rfl | rfl | rfl | rfl | rfl | rfl | rfl | rfl | rfl | rfl | rfl | rfl | rfl | rfl <;>
  exact List.forall_iff_forall_mem.mp (by
    simp only [hostOps0_3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps0_4 : ∀ b ∈ args, ∀ op ∈ (hostOps0_4 : List (HloOp τ sig (Elt F))), Proc.devRef .tc b ∉ op.writes := by
  intro b hb
  simp only [args, List.mem_cons, List.mem_singleton, List.not_mem_nil, or_false] at hb
  rcases hb with rfl | rfl | rfl | rfl | rfl | rfl | rfl | rfl | rfl | rfl | rfl | rfl | rfl | rfl | rfl | rfl <;>
  exact List.forall_iff_forall_mem.mp (by
    simp only [hostOps0_4, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps1 : ∀ b ∈ kept, ∀ op ∈ (hostOps1 : List (HloOp τ sig (Elt F))), Proc.devRef .tc b ∉ op.writes := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl <;>
  exact List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps1_1 : ∀ b ∈ kept, ∀ op ∈ (hostOps1_1 : List (HloOp τ sig (Elt F))), Proc.devRef .tc b ∉ op.writes := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl <;>
  exact List.forall_iff_forall_mem.mp (by
    simp only [hostOps1_1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps1_2 : ∀ b ∈ kept, ∀ op ∈ (hostOps1_2 : List (HloOp τ sig (Elt F))), Proc.devRef .tc b ∉ op.writes := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl <;>
  exact List.forall_iff_forall_mem.mp (by
    simp only [hostOps1_2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps2 : ∀ b ∈ kept, ∀ op ∈ (hostOps2 : List (HloOp τ sig (Elt F))), Proc.devRef .tc b ∉ op.writes := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl <;>
  exact List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps2_1 : ∀ b ∈ kept, ∀ op ∈ (hostOps2_1 : List (HloOp τ sig (Elt F))), Proc.devRef .tc b ∉ op.writes := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl <;>
  exact List.forall_iff_forall_mem.mp (by
    simp only [hostOps2_1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps2_2 : ∀ b ∈ kept, ∀ op ∈ (hostOps2_2 : List (HloOp τ sig (Elt F))), Proc.devRef .tc b ∉ op.writes := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl <;>
  exact List.forall_iff_forall_mem.mp (by
    simp only [hostOps2_2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps3 : ∀ b ∈ kept, ∀ op ∈ (hostOps3 : List (HloOp τ sig (Elt F))), Proc.devRef .tc b ∉ op.writes := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl <;>
  exact List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps3_1 : ∀ b ∈ kept, ∀ op ∈ (hostOps3_1 : List (HloOp τ sig (Elt F))), Proc.devRef .tc b ∉ op.writes := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl <;>
  exact List.forall_iff_forall_mem.mp (by
    simp only [hostOps3_1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps3_2 : ∀ b ∈ kept, ∀ op ∈ (hostOps3_2 : List (HloOp τ sig (Elt F))), Proc.devRef .tc b ∉ op.writes := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl <;>
  exact List.forall_iff_forall_mem.mp (by
    simp only [hostOps3_2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps3_3 : ∀ b ∈ kept, ∀ op ∈ (hostOps3_3 : List (HloOp τ sig (Elt F))), Proc.devRef .tc b ∉ op.writes := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl <;>
  exact List.forall_iff_forall_mem.mp (by
    simp only [hostOps3_3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps3_4 : ∀ b ∈ kept, ∀ op ∈ (hostOps3_4 : List (HloOp τ sig (Elt F))), Proc.devRef .tc b ∉ op.writes := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl <;>
  exact List.forall_iff_forall_mem.mp (by
    simp only [hostOps3_4, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps4 : ∀ b ∈ kept, ∀ op ∈ (hostOps4 : List (HloOp τ sig (Elt F))), Proc.devRef .tc b ∉ op.writes := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl <;>
  exact List.forall_iff_forall_mem.mp (by
    simp only [hostOps4, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

theorem unwritten_hostOps5 : ∀ b ∈ kept, ∀ op ∈ (hostOps5 : List (HloOp τ sig (Elt F))), Proc.devRef .tc b ∉ op.writes := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl <;>
  exact List.forall_iff_forall_mem.mp (by
    simp only [hostOps5, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))

/-! ## Along the fold -/

variable (m : (ℓ : Loc nD τ sig) → Buf (Elt F) ℓ) (ρ : Dev nD → PrngReg)

theorem args1 (c : Dev nD) : Same args (W1 m ρ c) (W0 m ρ c) := same_after args hostOps0 _ unwritten_hostOps0
theorem args2 (c : Dev nD) : Same args (W2 m ρ c) (W0 m ρ c) := (same_after args hostOps0_1 _ unwritten_hostOps0_1).trans (args1 m ρ c)
theorem args3 (c : Dev nD) : Same args (W3 m ρ c) (W0 m ρ c) := (same_after args hostOps0_2 _ unwritten_hostOps0_2).trans (args2 m ρ c)
theorem args4 (c : Dev nD) : Same args (W4 m ρ c) (W0 m ρ c) := (same_after args hostOps0_3 _ unwritten_hostOps0_3).trans (args3 m ρ c)
theorem args5 (c : Dev nD) : Same args (W5 m ρ c) (W0 m ρ c) := (same_after args hostOps0_4 _ unwritten_hostOps0_4).trans (args4 m ρ c)

/-- Pallas_call 0 keeps them: main_arg0 is an input window's array, the others are not its arrays. -/
theorem region0 (c : Dev nD) : Same kept (W6 m ρ c) (W5 m ρ c) := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl
  · exact (W6_arr m ρ c 0).trans (((dat0 (V5 m ρ) c).arrAt_in 0 rfl _).trans (A_eq0 (V5 m ρ) c 0))
  · exact W6_of_ne m ρ c main_arg1 (by decide)
  · exact W6_of_ne m ρ c main_arg2 (by decide)
  · exact W6_of_ne m ρ c main_arg3 (by decide)
  · exact W6_of_ne m ρ c main_arg4 (by decide)
  · exact W6_of_ne m ρ c main_arg5 (by decide)
  · exact W6_of_ne m ρ c main_arg6 (by decide)
  · exact W6_of_ne m ρ c main_arg7 (by decide)
  · exact W6_of_ne m ρ c main_arg8 (by decide)
  · exact W6_of_ne m ρ c main_arg9 (by decide)
  · exact W6_of_ne m ρ c main_arg10 (by decide)
  · exact W6_of_ne m ρ c main_arg11 (by decide)
  · exact W6_of_ne m ρ c main_arg12 (by decide)
  · exact W6_of_ne m ρ c main_arg13 (by decide)
  · exact W6_of_ne m ρ c main_arg14 (by decide)
  · exact W6_of_ne m ρ c main_arg15 (by decide)
  · exact W6_of_ne m ρ c main_v8 (by decide)
  · exact W6_of_ne m ρ c main_v10 (by decide)

/-- Pallas_call 1 keeps them: none is one of its arrays. -/
theorem region1 (c : Dev nD) : Same kept (W10 m ρ c) (W9 m ρ c) := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl
  · exact W10_of_ne m ρ c main_arg0 (by decide)
  · exact W10_of_ne m ρ c main_arg1 (by decide)
  · exact W10_of_ne m ρ c main_arg2 (by decide)
  · exact W10_of_ne m ρ c main_arg3 (by decide)
  · exact W10_of_ne m ρ c main_arg4 (by decide)
  · exact W10_of_ne m ρ c main_arg5 (by decide)
  · exact W10_of_ne m ρ c main_arg6 (by decide)
  · exact W10_of_ne m ρ c main_arg7 (by decide)
  · exact W10_of_ne m ρ c main_arg8 (by decide)
  · exact W10_of_ne m ρ c main_arg9 (by decide)
  · exact W10_of_ne m ρ c main_arg10 (by decide)
  · exact W10_of_ne m ρ c main_arg11 (by decide)
  · exact W10_of_ne m ρ c main_arg12 (by decide)
  · exact W10_of_ne m ρ c main_arg13 (by decide)
  · exact W10_of_ne m ρ c main_arg14 (by decide)
  · exact W10_of_ne m ρ c main_arg15 (by decide)
  · exact W10_of_ne m ρ c main_v8 (by decide)
  · exact W10_of_ne m ρ c main_v10 (by decide)

/-- Pallas_call 2 keeps them: none is one of its arrays. -/
theorem region2 (c : Dev nD) : Same kept (W14 m ρ c) (W13 m ρ c) := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl
  · exact W14_of_ne m ρ c main_arg0 (by decide)
  · exact W14_of_ne m ρ c main_arg1 (by decide)
  · exact W14_of_ne m ρ c main_arg2 (by decide)
  · exact W14_of_ne m ρ c main_arg3 (by decide)
  · exact W14_of_ne m ρ c main_arg4 (by decide)
  · exact W14_of_ne m ρ c main_arg5 (by decide)
  · exact W14_of_ne m ρ c main_arg6 (by decide)
  · exact W14_of_ne m ρ c main_arg7 (by decide)
  · exact W14_of_ne m ρ c main_arg8 (by decide)
  · exact W14_of_ne m ρ c main_arg9 (by decide)
  · exact W14_of_ne m ρ c main_arg10 (by decide)
  · exact W14_of_ne m ρ c main_arg11 (by decide)
  · exact W14_of_ne m ρ c main_arg12 (by decide)
  · exact W14_of_ne m ρ c main_arg13 (by decide)
  · exact W14_of_ne m ρ c main_arg14 (by decide)
  · exact W14_of_ne m ρ c main_arg15 (by decide)
  · exact W14_of_ne m ρ c main_v8 (by decide)
  · exact W14_of_ne m ρ c main_v10 (by decide)

/-- Pallas_call 3 keeps them: main_arg11 is an input window's array, the others are not its arrays. -/
theorem region3 (c : Dev nD) : Same kept (W20 m ρ c) (W19 m ρ c) := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl
  · exact W20_of_ne m ρ c main_arg0 (by decide)
  · exact W20_of_ne m ρ c main_arg1 (by decide)
  · exact W20_of_ne m ρ c main_arg2 (by decide)
  · exact W20_of_ne m ρ c main_arg3 (by decide)
  · exact W20_of_ne m ρ c main_arg4 (by decide)
  · exact W20_of_ne m ρ c main_arg5 (by decide)
  · exact W20_of_ne m ρ c main_arg6 (by decide)
  · exact W20_of_ne m ρ c main_arg7 (by decide)
  · exact W20_of_ne m ρ c main_arg8 (by decide)
  · exact W20_of_ne m ρ c main_arg9 (by decide)
  · exact W20_of_ne m ρ c main_arg10 (by decide)
  · exact (W20_arr m ρ c 2).trans (((dat3 (V19 m ρ) c).arrAt_in 2 rfl _).trans (A_eq3 (V19 m ρ) c 2))
  · exact W20_of_ne m ρ c main_arg12 (by decide)
  · exact W20_of_ne m ρ c main_arg13 (by decide)
  · exact W20_of_ne m ρ c main_arg14 (by decide)
  · exact W20_of_ne m ρ c main_arg15 (by decide)
  · exact W20_of_ne m ρ c main_v8 (by decide)
  · exact W20_of_ne m ρ c main_v10 (by decide)

/-- Pallas_call 4 keeps them: main_arg13 is an input window's array, the others are not its arrays. -/
theorem region4 (c : Dev nD) : Same kept (W22 m ρ c) (W21 m ρ c) := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl
  · exact W22_of_ne m ρ c main_arg0 (by decide)
  · exact W22_of_ne m ρ c main_arg1 (by decide)
  · exact W22_of_ne m ρ c main_arg2 (by decide)
  · exact W22_of_ne m ρ c main_arg3 (by decide)
  · exact W22_of_ne m ρ c main_arg4 (by decide)
  · exact W22_of_ne m ρ c main_arg5 (by decide)
  · exact W22_of_ne m ρ c main_arg6 (by decide)
  · exact W22_of_ne m ρ c main_arg7 (by decide)
  · exact W22_of_ne m ρ c main_arg8 (by decide)
  · exact W22_of_ne m ρ c main_arg9 (by decide)
  · exact W22_of_ne m ρ c main_arg10 (by decide)
  · exact W22_of_ne m ρ c main_arg11 (by decide)
  · exact W22_of_ne m ρ c main_arg12 (by decide)
  · exact (W22_arr m ρ c 2).trans (((dat4 (V21 m ρ) c).arrAt_in 2 rfl _).trans (A_eq4 (V21 m ρ) c 2))
  · exact W22_of_ne m ρ c main_arg14 (by decide)
  · exact W22_of_ne m ρ c main_arg15 (by decide)
  · exact W22_of_ne m ρ c main_v8 (by decide)
  · exact W22_of_ne m ρ c main_v10 (by decide)

/-- Pallas_call 5 keeps them: main_arg15 is an input window's array, the others are not its arrays. -/
theorem region5 (c : Dev nD) : Same kept (W24 m ρ c) (W23 m ρ c) := by
  intro b hb
  simp only [kept, List.mem_cons, List.mem_singleton, List.not_mem_nil, or_false] at hb
  rcases hb with rfl | rfl | rfl | rfl | rfl | rfl | rfl | rfl | rfl | rfl | rfl | rfl | rfl | rfl | rfl | rfl | rfl | rfl
  · exact W24_of_ne m ρ c main_arg0 (by decide)
  · exact W24_of_ne m ρ c main_arg1 (by decide)
  · exact W24_of_ne m ρ c main_arg2 (by decide)
  · exact W24_of_ne m ρ c main_arg3 (by decide)
  · exact W24_of_ne m ρ c main_arg4 (by decide)
  · exact W24_of_ne m ρ c main_arg5 (by decide)
  · exact W24_of_ne m ρ c main_arg6 (by decide)
  · exact W24_of_ne m ρ c main_arg7 (by decide)
  · exact W24_of_ne m ρ c main_arg8 (by decide)
  · exact W24_of_ne m ρ c main_arg9 (by decide)
  · exact W24_of_ne m ρ c main_arg10 (by decide)
  · exact W24_of_ne m ρ c main_arg11 (by decide)
  · exact W24_of_ne m ρ c main_arg12 (by decide)
  · exact W24_of_ne m ρ c main_arg13 (by decide)
  · exact W24_of_ne m ρ c main_arg14 (by decide)
  · exact (W24_arr m ρ c 2).trans (((dat5 (V23 m ρ) c).arrAt_in 2 rfl _).trans (A_eq5 (V23 m ρ) c 2))
  · exact W24_of_ne m ρ c main_v8 (by decide)
  · exact W24_of_ne m ρ c main_v10 (by decide)

theorem same6 (c : Dev nD) : Same kept (W6 m ρ c) (W5 m ρ c) := region0 m ρ c
theorem same7 (c : Dev nD) : Same kept (W7 m ρ c) (W5 m ρ c) := (same_after kept hostOps1 _ unwritten_hostOps1).trans (same6 m ρ c)
theorem same8 (c : Dev nD) : Same kept (W8 m ρ c) (W5 m ρ c) := (same_after kept hostOps1_1 _ unwritten_hostOps1_1).trans (same7 m ρ c)
theorem same9 (c : Dev nD) : Same kept (W9 m ρ c) (W5 m ρ c) := (same_after kept hostOps1_2 _ unwritten_hostOps1_2).trans (same8 m ρ c)
theorem same10 (c : Dev nD) : Same kept (W10 m ρ c) (W5 m ρ c) := (region1 m ρ c).trans (same9 m ρ c)
theorem same11 (c : Dev nD) : Same kept (W11 m ρ c) (W5 m ρ c) := (same_after kept hostOps2 _ unwritten_hostOps2).trans (same10 m ρ c)
theorem same12 (c : Dev nD) : Same kept (W12 m ρ c) (W5 m ρ c) := (same_after kept hostOps2_1 _ unwritten_hostOps2_1).trans (same11 m ρ c)
theorem same13 (c : Dev nD) : Same kept (W13 m ρ c) (W5 m ρ c) := (same_after kept hostOps2_2 _ unwritten_hostOps2_2).trans (same12 m ρ c)
theorem same14 (c : Dev nD) : Same kept (W14 m ρ c) (W5 m ρ c) := (region2 m ρ c).trans (same13 m ρ c)
theorem same15 (c : Dev nD) : Same kept (W15 m ρ c) (W5 m ρ c) := (same_after kept hostOps3 _ unwritten_hostOps3).trans (same14 m ρ c)
theorem same16 (c : Dev nD) : Same kept (W16 m ρ c) (W5 m ρ c) := (same_after kept hostOps3_1 _ unwritten_hostOps3_1).trans (same15 m ρ c)
theorem same17 (c : Dev nD) : Same kept (W17 m ρ c) (W5 m ρ c) := (same_after kept hostOps3_2 _ unwritten_hostOps3_2).trans (same16 m ρ c)
theorem same18 (c : Dev nD) : Same kept (W18 m ρ c) (W5 m ρ c) := (same_after kept hostOps3_3 _ unwritten_hostOps3_3).trans (same17 m ρ c)
theorem same19 (c : Dev nD) : Same kept (W19 m ρ c) (W5 m ρ c) := (same_after kept hostOps3_4 _ unwritten_hostOps3_4).trans (same18 m ρ c)
theorem same20 (c : Dev nD) : Same kept (W20 m ρ c) (W5 m ρ c) := (region3 m ρ c).trans (same19 m ρ c)
theorem same21 (c : Dev nD) : Same kept (W21 m ρ c) (W5 m ρ c) := (same_after kept hostOps4 _ unwritten_hostOps4).trans (same20 m ρ c)
theorem same22 (c : Dev nD) : Same kept (W22 m ρ c) (W5 m ρ c) := (region4 m ρ c).trans (same21 m ρ c)
theorem same23 (c : Dev nD) : Same kept (W23 m ρ c) (W5 m ρ c) := (same_after kept hostOps5 _ unwritten_hostOps5).trans (same22 m ρ c)
theorem same24 (c : Dev nD) : Same kept (W24 m ρ c) (W5 m ρ c) := (region5 m ρ c).trans (same23 m ρ c)

/-- At and after the first pallas_call's entry an argument array holds the launch memory's contents. -/
theorem arg_at5 (c : Dev nD) (b : Ref sig .tc) (hb : b ∈ args) : W5 m ρ c (Proc.devRef .tc b) = m ((c : Thread nD τ).loc b) :=
  args5 m ρ c b hb

end Cert.KernelIdeal.Keep

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibPlainDot.lean ====
/-
  The host's matrix product read at an index, at the ideal values: for the plain dimension numbers (an M × K matrix by a
  K × N matrix, the left operand contracted on its columns and the right on its rows) a `dot_general` is, at (i, j), the
  sum over k of left (i, k) times right (k, j) (`plainDot_apply`) — the same sum a `tpu.matmul` into the zero
  accumulator takes. The operands' element formats are free.
-/
import Idealize.ShloMosaic.PureOps.Ideal.Laws
import Idealize.ShloMosaic.Lib.ValueIdx
import proofs.«170863_j1554778161831_1_alg».proof.Proof.LibPlainMatmul

noncomputable section

open scoped BigOperators

namespace Idealize.ShloMosaic.PlainDot

open Idealize.ShloMosaic Idealize.ShloMosaic.ValueIdx Idealize.ShloMosaic.PlainMatmul

variable {M K N : Nat}

/-- A plain host matrix product at (i, j): the sum over k of left (i, k) · right (k, j). -/
theorem plainDot_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainDot

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibDenseHost.lean ====
/-
  A dense layer as a host program writes it, read at an index at the ideal values, for any extents M, K, N:

  * `scaledDot_apply`: the rows of an M × K matrix each scaled by its own factor (the factors an [M] array placed as a
    column and broadcast along the rows) and multiplied by a K × N matrix — entry (i, j) is the sum over k of
    (h (i, k) * d i) * W (k, j);
  * `dotBias_apply`: a matrix product plus a bias row (an [N] array placed as a row and broadcast down the columns) —
    entry (i, j) is the sum over k of x (i, k) * W (k, j), plus b j;
  * `zeros_apply`: the zero array, a rank-0 constant broadcast to M × N — every entry is the zero pattern's value.

  The matrix product is the plain one (the left operand contracted on its columns, the right on its rows).
-/
import Idealize.ShloMosaic.PureOps.Ideal.Laws
import Idealize.ShloMosaic.Lib.Pipeline.Value
import Idealize.ShloMosaic.Lib.ValueIdx
import proofs.«170863_j1554778161831_1_alg».proof.Proof.LibPlainDot
import proofs.«170863_j1554778161831_1_alg».proof.Proof.LibHostReads

noncomputable section

open scoped BigOperators

namespace Idealize.ShloMosaic.DenseHost

open Idealize.ShloMosaic Idealize.ShloMosaic.ValueIdx

section Host
variable {M K N : Nat}

/-- The row-scaled matrix times the weights, as the host writes it: entry (i, j) is the sum over k of
    (h (i, k) * d i) * W (k, j). -/
theorem scaledDot_apply (h : FVec Ideal ⟨2, ![M, K]⟩ .f32) (d : FVec Ideal ⟨1, ![M]⟩ .f32) (W : FVec Ideal ⟨2, ![K, N]⟩ .f32)
    (hc : (⟨1, ![M]⟩ : Shape).BroadcastsInDim ⟨2, ![M, 1]⟩ ![0])
    (hb : (⟨2, ![M, 1]⟩ : Shape).BroadcastsInDim ⟨2, ![M, K]⟩ ![0, 1]) (i : Fin M) (j : Fin N) :
    Host.dotGeneral (DotDims.plain M K N) none
        (mulf h (broadcastInDim ⟨2, ![M, K]⟩ ![0, 1] hb (broadcastInDim ⟨2, ![M, 1]⟩ ![0] hc d))) W (ix2 i j)
      = ∑ k : Fin K, (h (ix2 i k) * d (ix1 i)) * W (ix2 k j) := by
  rw [PlainDot.plainDot_apply]
  refine Finset.sum_congr rfl fun k _ => ?_
  rw [mulf_apply, HostReads.bcast_col_apply, HostReads.bcast_toCol_apply]

/-- A matrix product plus a bias row, as the host writes it, at (i, j). -/
theorem dotBias_apply (x : FVec Ideal ⟨2, ![M, K]⟩ .f32) (W : FVec Ideal ⟨2, ![K, N]⟩ .f32) (b : FVec Ideal ⟨1, ![N]⟩ .f32)
    (hr : (⟨1, ![N]⟩ : Shape).BroadcastsInDim ⟨2, ![1, N]⟩ ![1])
    (hb : (⟨2, ![1, N]⟩ : Shape).BroadcastsInDim ⟨2, ![M, N]⟩ ![0, 1]) (i : Fin M) (j : Fin N) :
    addf (Host.dotGeneral (DotDims.plain M K N) none x W)
        (broadcastInDim ⟨2, ![M, N]⟩ ![0, 1] hb (broadcastInDim ⟨2, ![1, N]⟩ ![1] hr b)) (ix2 i j)
      = (∑ k : Fin K, x (ix2 i k) * W (ix2 k j)) + b (ix1 j) := by
  rw [addf_apply, PlainDot.plainDot_apply, HostReads.bcast_row_apply, HostReads.bcast_toRow_apply]

/-- The host's zero array at an index. -/
theorem zeros_apply (hz : (⟨0, ![]⟩ : Shape).BroadcastsInDim ⟨2, ![M, N]⟩ ![]) (i : (⟨2, ![M, N]⟩ : Shape).Idx) :
    broadcastInDim ⟨2, ![M, N]⟩ ![] hz (constant (F := Ideal) ⟨0, ![]⟩ .f32 0x00000000#32) i = Ideal.ofBits .f32 0x00000000#32 := by
  exact (broadcastInDim_apply _ hz _ i (fun a => a.elim0) (fun a => a.elim0)).trans (constant_apply _ _)

end Host

end Idealize.ShloMosaic.DenseHost

end
-- ==== Proof.Bodies.lean ====
/-
  The six kernel bodies read at an index at the ideal values, against the reference's host operations they stand for.

  A graph-convolution body takes a block of 1000 rows: it scales row p of the block by the row's out-degree factor,
  and multiplies by the weight matrix; at the ideal values the change to a shorter float format is the identity and a
  matrix product into the zero accumulator is the plain sum over the contracted coordinate, so entry (p, q) is
  the sum over k of (x (p, k) * s (p, 0)) * w (k, q). The reference's host text computes the same entry of the whole
  array as a dot_general of the row-scaled matrix. A head body is a matrix product plus a bias row, then (for two of the
  three) the maximum with zero; the reference writes the same with a dot_general and broadcast_in_dim's.
-/
import proofs.«170863_j1554778161831_1_alg».proof.Proof.Gen.KernelIdeal.Skeleton
import proofs.«170863_j1554778161831_1_alg».proof.Proof.LibPlainMatmul
import proofs.«170863_j1554778161831_1_alg».proof.Proof.LibPlainDot
import proofs.«170863_j1554778161831_1_alg».proof.Proof.LibHostReads
import proofs.«170863_j1554778161831_1_alg».proof.Proof.LibKeepdims
import proofs.«170863_j1554778161831_1_alg».proof.Proof.LibDenseHost
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.Bodies

open Cert.KernelIdeal Cert.KernelIdeal.Gen
open Idealize.ShloMosaic Idealize.ShloMosaic.ValueIdx

/-! ## The graph-convolution bodies at an entry of the block -/

/-- Layer 1's body (128 input features). -/
theorem conv0_apply (x0 : Vec Ideal S1000x128 .f32) (x1 : Vec Ideal S1000x1 .f32) (x2 : Vec Ideal S128x512 .bf16)
    (p : Fin 1000) (q : Fin 512) :
    k0_pay1 (F := Ideal) x0 x1 x2 (ix2 p q) = ∑ k : Fin 128, (x0 (ix2 p k) * x1 (ix2 p 0)) * x2 (ix2 k q) := by
  unfold k0_pay1
  refine (PlainMatmul.plainMatmul_apply (M := 1000) (K := 128) (N := 512) none _ _ p q).trans ?_
  refine Finset.sum_congr rfl fun k _ => ?_
  rw [truncf_apply, mulf_apply, shapeCast_self, shapeCast_self, Keepdims.bcast_col_apply]

/-- Layer 2's body (512 input features). -/
theorem conv1_apply (x0 : Vec Ideal S1000x512 .f32) (x1 : Vec Ideal S1000x1 .f32) (x2 : Vec Ideal S512x512 .bf16)
    (p : Fin 1000) (q : Fin 512) :
    k1_pay1 (F := Ideal) x0 x1 x2 (ix2 p q) = ∑ k : Fin 512, (x0 (ix2 p k) * x1 (ix2 p 0)) * x2 (ix2 k q) := by
  unfold k1_pay1
  refine (PlainMatmul.plainMatmul_apply (M := 1000) (K := 512) (N := 512) none _ _ p q).trans ?_
  refine Finset.sum_congr rfl fun k _ => ?_
  rw [truncf_apply, mulf_apply, shapeCast_self, shapeCast_self, shapeCast_self, Keepdims.bcast_col_apply]

/-- Layer 3's body (the same text as layer 2's). -/
theorem conv2_apply (x0 : Vec Ideal S1000x512 .f32) (x1 : Vec Ideal S1000x1 .f32) (x2 : Vec Ideal S512x512 .bf16)
    (p : Fin 1000) (q : Fin 512) :
    k2_pay1 (F := Ideal) x0 x1 x2 (ix2 p q) = ∑ k : Fin 512, (x0 (ix2 p k) * x1 (ix2 p 0)) * x2 (ix2 k q) := by
  unfold k2_pay1
  refine (PlainMatmul.plainMatmul_apply (M := 1000) (K := 512) (N := 512) none _ _ p q).trans ?_
  refine Finset.sum_congr rfl fun k _ => ?_
  rw [truncf_apply, mulf_apply, shapeCast_self, shapeCast_self, shapeCast_self, Keepdims.bcast_col_apply]

/-! ## The head bodies are the reference's host text, as whole arrays -/

/-- The first head layer: the body on the pooled features, the weights in the shorter format and the bias is the
    reference's maximum (dot_general + bias) with zero. -/
theorem head3_eq (x : FVec Ideal S64x512 .f32) (W : FVec Ideal S512x512 .f32) (b : FVec Ideal S512 .f32)
    (hr : (⟨1, ![512]⟩ : Shape).BroadcastsInDim ⟨2, ![1, 512]⟩ ![1])
    (hb : (⟨2, ![1, 512]⟩ : Shape).BroadcastsInDim ⟨2, ![64, 512]⟩ ![0, 1])
    (hz : (⟨0, ![]⟩ : Shape).BroadcastsInDim ⟨2, ![64, 512]⟩ ![]) :
    k3_pay1 (F := Ideal) x (truncf .bf16 W bitsLt_bf16_f32) b
      = maximumf (addf (Host.dotGeneral (DotDims.plain 64 512 512) none x W)
          (broadcastInDim ⟨2, ![64, 512]⟩ ![0, 1] hb (broadcastInDim ⟨2, ![1, 512]⟩ ![1] hr b)))
          (broadcastInDim ⟨2, ![64, 512]⟩ ![] hz (constant ⟨0, ![]⟩ .f32 0x00000000#32)) := by
  funext i
  obtain ⟨p, q, rfl⟩ : ∃ (p : Fin 64) (q : Fin 512), i = ix2 p q := ⟨i 0, i 1, eq_ix2 i⟩
  rw [maximumf_apply, DenseHost.dotBias_apply, DenseHost.zeros_apply]
  unfold k3_pay1
  rw [maximumf_apply, addf_apply, broadcast_apply]
  refine congrArg₂ max (congrArg₂ (· + ·) ?_ ?_) rfl
  · refine (PlainMatmul.plainMatmul_apply (M := 64) (K := 512) (N := 512) none _ _ p q).trans ?_
    refine Finset.sum_congr rfl fun k _ => ?_
    rw [truncf_apply, shapeCast_self, shapeCast_self, truncf_apply]
  · rw [broadcastTo_1b_ab_apply, shapeCast_a_1a_apply]

/-- The second head layer (the same text). -/
theorem head4_eq (x : FVec Ideal S64x512 .f32) (W : FVec Ideal S512x512 .f32) (b : FVec Ideal S512 .f32)
    (hr : (⟨1, ![512]⟩ : Shape).BroadcastsInDim ⟨2, ![1, 512]⟩ ![1])
    (hb : (⟨2, ![1, 512]⟩ : Shape).BroadcastsInDim ⟨2, ![64, 512]⟩ ![0, 1])
    (hz : (⟨0, ![]⟩ : Shape).BroadcastsInDim ⟨2, ![64, 512]⟩ ![]) :
    k4_pay1 (F := Ideal) x (truncf .bf16 W bitsLt_bf16_f32) b
      = maximumf (addf (Host.dotGeneral (DotDims.plain 64 512 512) none x W)
          (broadcastInDim ⟨2, ![64, 512]⟩ ![0, 1] hb (broadcastInDim ⟨2, ![1, 512]⟩ ![1] hr b)))
          (broadcastInDim ⟨2, ![64, 512]⟩ ![] hz (constant ⟨0, ![]⟩ .f32 0x00000000#32)) := by
  funext i
  obtain ⟨p, q, rfl⟩ : ∃ (p : Fin 64) (q : Fin 512), i = ix2 p q := ⟨i 0, i 1, eq_ix2 i⟩
  rw [maximumf_apply, DenseHost.dotBias_apply, DenseHost.zeros_apply]
  unfold k4_pay1
  rw [maximumf_apply, addf_apply, broadcast_apply]
  refine congrArg₂ max (congrArg₂ (· + ·) ?_ ?_) rfl
  · refine (PlainMatmul.plainMatmul_apply (M := 64) (K := 512) (N := 512) none _ _ p q).trans ?_
    refine Finset.sum_congr rfl fun k _ => ?_
    rw [truncf_apply, shapeCast_self, shapeCast_self, truncf_apply]
  · rw [broadcastTo_1b_ab_apply, shapeCast_a_1a_apply]

/-- The last head layer: the product plus the bias, no maximum. -/
theorem head5_eq (x : FVec Ideal S64x512 .f32) (W : FVec Ideal S512x16 .f32) (b : FVec Ideal S16 .f32)
    (hr : (⟨1, ![16]⟩ : Shape).BroadcastsInDim ⟨2, ![1, 16]⟩ ![1])
    (hb : (⟨2, ![1, 16]⟩ : Shape).BroadcastsInDim ⟨2, ![64, 16]⟩ ![0, 1]) :
    k5_pay1 (F := Ideal) x (truncf .bf16 W bitsLt_bf16_f32) b
      = addf (Host.dotGeneral (DotDims.plain 64 512 16) none x W)
          (broadcastInDim ⟨2, ![64, 16]⟩ ![0, 1] hb (broadcastInDim ⟨2, ![1, 16]⟩ ![1] hr b)) := by
  funext i
  obtain ⟨p, q, rfl⟩ : ∃ (p : Fin 64) (q : Fin 16), i = ix2 p q := ⟨i 0, i 1, eq_ix2 i⟩
  rw [DenseHost.dotBias_apply]
  unfold k5_pay1
  rw [addf_apply]
  refine congrArg₂ (· + ·) ?_ ?_
  · refine (PlainMatmul.plainMatmul_apply (M := 64) (K := 512) (N := 16) none _ _ p q).trans ?_
    refine Finset.sum_congr rfl fun k _ => ?_
    rw [truncf_apply, shapeCast_self, shapeCast_self, truncf_apply]
  · rw [broadcastTo_1b_ab_apply, shapeCast_a_1a_apply]

end Cert.KernelIdeal.Bodies

end
-- ==== Proof.Conv0.lean ====
/-
  The first graph-convolution pallas_call as one array. The call runs over 20 grid points; point t takes rows
  1000 t … 1000 t + 999 of the feature matrix and of the out-degree factors (held as a column), and the whole weight
  matrix, and writes rows 1000 t … 1000 t + 999 of the result. The 20 row blocks tile the result, and entry (i, j) of
  block i / 1000 is the sum over k of (h (i, k) * d i) * W (k, j): the array the call leaves is the reference's
  dot_general of the row-scaled features with the weights, whatever the feature matrix, the factors and the weights
  are at the call's entry.
-/
import proofs.«170863_j1554778161831_1_alg».proof.Proof.Gen.KernelIdeal.Frame
import proofs.«170863_j1554778161831_1_alg».proof.Proof.Bodies
import Idealize.ShloMosaic.Lib.Pipeline.Value

set_option maxRecDepth 16384

noncomputable section

open scoped BigOperators

namespace Cert.KernelIdeal.Conv0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the features, the factors and the result move one block of rows per
    point; the weights stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array the call leaves: the reference's host text for the projection. -/
abbrev G (h : FVec Ideal S20000x128 .f32) (d : FVec Ideal S20000 .f32) (W : FVec Ideal S128x512 .f32)
    (hc : (⟨1, ![20000]⟩ : Shape).BroadcastsInDim ⟨2, ![20000, 1]⟩ ![0])
    (hb : (⟨2, ![20000, 1]⟩ : Shape).BroadcastsInDim ⟨2, ![20000, 128]⟩ ![0, 1]) : FVec Ideal S20000x512 .f32 :=
  Host.dotGeneral (DotDims.plain 20000 128 512) none
    (mulf h (broadcastInDim ⟨2, ![20000, 128]⟩ ![0, 1] hb (broadcastInDim ⟨2, ![20000, 1]⟩ ![0] hc d))) W

/-- One entry of one block: if the loaded blocks are rows r·1000 … of the features and of the factors, and the
    weights, the body's entry y is the array's entry i at row r·1000 + y's row and y's column. -/
theorem point (x0 : Vec Ideal S1000x128 .f32) (x1 : Vec Ideal S1000x1 .f32) (x2 : Vec Ideal S128x512 .bf16)
    (h : FVec Ideal S20000x128 .f32) (d : FVec Ideal S20000 .f32) (W : FVec Ideal S128x512 .f32)
    (hc : (⟨1, ![20000]⟩ : Shape).BroadcastsInDim ⟨2, ![20000, 1]⟩ ![0])
    (hb : (⟨2, ![20000, 1]⟩ : Shape).BroadcastsInDim ⟨2, ![20000, 128]⟩ ![0, 1]) (r : Nat)
    (e0 : ∀ (p : Fin 1000) (k : Fin 128) (i : Fin 20000), i.val = r * 1000 + p.val → x0 (ix2 p k) = h (ix2 i k))
    (e1 : ∀ (p : Fin 1000) (i : Fin 20000), i.val = r * 1000 + p.val → x1 (ix2 p 0) = d (ix1 i))
    (e2 : ∀ (k : Fin 128) (q : Fin 512), x2 (ix2 k q) = W (ix2 k q))
    (y : S1000x512.Idx) (i : S20000x512.Idx) (hi0 : (i 0).val = r * 1000 + (y 0).val) (hi1 : (i 1).val = (y 1).val) :
    k0_pay1 (F := Ideal) x0 x1 x2 y = G h d W hc hb i := by
  obtain ⟨p, q, rfl⟩ : ∃ (p : Fin 1000) (q : Fin 512), y = ix2 p q := ⟨y 0, y 1, eq_ix2 y⟩
  obtain ⟨a, b, rfl⟩ : ∃ (a : Fin 20000) (b : Fin 512), i = ix2 a b := ⟨i 0, i 1, eq_ix2 i⟩
  have hbq : b = q := Fin.ext hi1
  subst hbq
  have ha : a.val = r * 1000 + p.val := hi0
  unfold G
  rw [Bodies.conv0_apply, DenseHost.scaledDot_apply]
  refine Finset.sum_congr rfl fun k _ => ?_
  rw [e0 p k a ha, e1 p a ha, e2]

/-- What point t writes back is block t of `G` of the entry contents. -/
theorem flushed_eq (c : Dev nD) (h : FVec Ideal S20000x128 .f32) (d : FVec Ideal S20000 .f32) (W : FVec Ideal S128x512 .f32)
    (hc : (⟨1, ![20000]⟩ : Shape).BroadcastsInDim ⟨2, ![20000, 1]⟩ ![0])
    (hb : (⟨2, ![20000, 1]⟩ : Shape).BroadcastsInDim ⟨2, ![20000, 128]⟩ ![0, 1])
    (hh : V c main_arg0 = h) (hs : V c main_v12 = shapeCast S20000x1 d shapeCasts_S20000_S20000x1)
    (hW : V c main_v11 = truncf .bf16 W bitsLt_bf16_f32) (t : Fin cfg0.N) :
    (dat0 V c).flushed 3 t = ((cfg0.win 3).blk t).view.read (Elt Ideal) (G h d W hc hb) := by
  show (cfg0.win 3).cut (grid0.coords t) ((dat0 V c).after 3 t) = _
  rw [after0_3]
  unfold out0_3
  rw [View.canon_unit_zero hz]
  simp only [View.ld_unit_zero (S := S1000x128) hz, View.ld_unit_zero (S := S1000x1) hz, View.ld_unit_zero (S := S128x512) hz]
  obtain ⟨f0, f1, f2, f3, f4, f5, f6, f7⟩ := idx_facts t
  funext y
  rw [View.read_apply]
  refine point (iblk0 V c 0 t) (iblk0 V c 1 t) (iblk0 V c 2 t) h d W hc hb t.val ?_ ?_ ?_ y
    (((cfg0.win 3).blk t).view.emb y) ?_ ?_
  · intro p k i hi
    unfold iblk0
    rw [View.read_apply]
    show V c main_arg0 _ = h _
    rw [hh]
    refine congrArg h (funext fun a => Fin.ext ?_)
    match a with
    | ⟨0, _⟩ => show win0_0.index t (0 : Fin 2) * 1000 + 1 * p.val = i.val; rw [f0, hi]; omega
    | ⟨1, _⟩ => show win0_0.index t (1 : Fin 2) * 128 + 1 * k.val = k.val; rw [f1]; omega
  · intro p i hi
    unfold iblk0
    rw [View.read_apply]
    show V c main_v12 _ = d _
    rw [hs]
    have he : ((cfg0.win 1).blk t).view.emb (ix2 p (0 : Fin 1)) = ix2 i (0 : Fin 1) := by
      funext a; apply Fin.ext
      match a with
      | ⟨0, _⟩ => show win0_1.index t (0 : Fin 2) * 1000 + 1 * p.val = i.val; rw [f2, hi]; omega
      | ⟨1, _⟩ => show win0_1.index t (1 : Fin 2) * 1 + 1 * 0 = 0; rw [f3]
    rw [he, Keepdims.cast_col_apply]
  · intro k q
    unfold iblk0
    rw [View.read_apply]
    show V c main_v11 _ = W _
    rw [hW, truncf_apply]
    refine congrArg W (funext fun a => Fin.ext ?_)
    match a with
    | ⟨0, _⟩ => show win0_2.index t (0 : Fin 2) * 128 + 1 * k.val = k.val; rw [f4]; omega
    | ⟨1, _⟩ => show win0_2.index t (1 : Fin 2) * 512 + 1 * q.val = q.val; rw [f5]; omega
  · show win0_3.index t (0 : Fin 2) * 1000 + 1 * (y 0).val = t.val * 1000 + (y 0).val
    rw [f6]; omega
  · show win0_3.index t (1 : Fin 2) * 512 + 1 * (y 1).val = (y 1).val
    rw [f7]; omega

/-- An index of the result is in point t's block iff each coordinate is in the block's range on its axis. -/
theorem mem_blk (t : Fin cfg0.N) (i : S20000x512.Idx) :
    i ∈ ((cfg0.win 3).blk t).view.set ↔ ∀ a : Fin 2, win0_3.index t a * S1000x512.size a ≤ (i a).val
      ∧ (i a).val < win0_3.index t a * S1000x512.size a + S1000x512.size a := by
  show i ∈ ((View.whole main_v13).slice (win0_3.rect t)).set ↔ _
  rw [View.set_slice_whole, Rect.mem_set_unit]
  exact Iff.rfl

/-- The 20 row blocks tile the result: row i is in the block of point i / 1000. -/
theorem cover (i : S20000x512.Idx) :
    ∃ t : Fin cfg0.N, (cfg0.win 3).flush t = true ∧ i ∈ ((cfg0.win 3).blk t).view.set := by
  have hi0 : (i 0).val < 20000 := (i 0).isLt
  have hi1 : (i 1).val < 512 := (i 1).isLt
  have hN : cfg0.N = 20 := N_0
  refine ⟨⟨(i 0).val / 1000, by rw [hN]; omega⟩, flush0_3 _, ?_⟩
  obtain ⟨f0, f1, f2, f3, f4, f5, f6, f7⟩ := idx_facts ⟨(i 0).val / 1000, by rw [hN]; omega⟩
  rw [mem_blk]
  intro a
  match a with
  | ⟨0, _⟩ =>
    show win0_3.index ⟨(i 0).val / 1000, _⟩ (0 : Fin 2) * 1000 ≤ (i 0).val
      ∧ (i 0).val < win0_3.index ⟨(i 0).val / 1000, _⟩ (0 : Fin 2) * 1000 + 1000
    rw [f6]; show (i 0).val / 1000 * 1000 ≤ (i 0).val ∧ (i 0).val < (i 0).val / 1000 * 1000 + 1000; omega
  | ⟨1, _⟩ =>
    show win0_3.index ⟨(i 0).val / 1000, _⟩ (1 : Fin 2) * 512 ≤ (i 1).val
      ∧ (i 1).val < win0_3.index ⟨(i 0).val / 1000, _⟩ (1 : Fin 2) * 512 + 512
    rw [f7]; omega

/-- The array the call leaves in its result buffer. -/
theorem final (c : Dev nD) (h : FVec Ideal S20000x128 .f32) (d : FVec Ideal S20000 .f32) (W : FVec Ideal S128x512 .f32)
    (hc : (⟨1, ![20000]⟩ : Shape).BroadcastsInDim ⟨2, ![20000, 1]⟩ ![0])
    (hb : (⟨2, ![20000, 1]⟩ : Shape).BroadcastsInDim ⟨2, ![20000, 128]⟩ ![0, 1])
    (hh : V c main_arg0 = h) (hs : V c main_v12 = shapeCast S20000x1 d shapeCasts_S20000_S20000x1)
    (hW : V c main_v11 = truncf .bf16 W bitsLt_bf16_f32) :
    (dat0 V c).arrAt 3 cfg0.N = G h d W hc hb :=
  (dat0 V c).arrAt_eq_of_cover 3 (G h d W hc hb) (fun t _ => flushed_eq V c h d W hc hb hh hs hW t) cover

end Cert.KernelIdeal.Conv0

end
-- ==== Proof.Conv1.lean ====
/-
  The second graph-convolution pallas_call as one array. The call runs over 20 grid points; point t takes rows
  1000 t … 1000 t + 999 of the feature matrix and of the out-degree factors (held as a column), and the whole weight
  matrix, and writes rows 1000 t … 1000 t + 999 of the result. The 20 row blocks tile the result, and entry (i, j) of
  block i / 1000 is the sum over k of (h (i, k) * d i) * W (k, j): the array the call leaves is the reference's
  dot_general of the row-scaled features with the weights, whatever the feature matrix, the factors and the weights
  are at the call's entry.
-/
import proofs.«170863_j1554778161831_1_alg».proof.Proof.Gen.KernelIdeal.Frame
import proofs.«170863_j1554778161831_1_alg».proof.Proof.Bodies
import Idealize.ShloMosaic.Lib.Pipeline.Value

set_option maxRecDepth 16384

noncomputable section

open scoped BigOperators

namespace Cert.KernelIdeal.Conv1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the features, the factors and the result move one block of rows per
    point; the weights stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The array the call leaves: the reference's host text for the projection. -/
abbrev G (h : FVec Ideal S20000x512 .f32) (d : FVec Ideal S20000 .f32) (W : FVec Ideal S512x512 .f32)
    (hc : (⟨1, ![20000]⟩ : Shape).BroadcastsInDim ⟨2, ![20000, 1]⟩ ![0])
    (hb : (⟨2, ![20000, 1]⟩ : Shape).BroadcastsInDim ⟨2, ![20000, 512]⟩ ![0, 1]) : FVec Ideal S20000x512 .f32 :=
  Host.dotGeneral (DotDims.plain 20000 512 512) none
    (mulf h (broadcastInDim ⟨2, ![20000, 512]⟩ ![0, 1] hb (broadcastInDim ⟨2, ![20000, 1]⟩ ![0] hc d))) W

/-- One entry of one block: if the loaded blocks are rows r·1000 … of the features and of the factors, and the
    weights, the body's entry y is the array's entry i at row r·1000 + y's row and y's column. -/
theorem point (x0 : Vec Ideal S1000x512 .f32) (x1 : Vec Ideal S1000x1 .f32) (x2 : Vec Ideal S512x512 .bf16)
    (h : FVec Ideal S20000x512 .f32) (d : FVec Ideal S20000 .f32) (W : FVec Ideal S512x512 .f32)
    (hc : (⟨1, ![20000]⟩ : Shape).BroadcastsInDim ⟨2, ![20000, 1]⟩ ![0])
    (hb : (⟨2, ![20000, 1]⟩ : Shape).BroadcastsInDim ⟨2, ![20000, 512]⟩ ![0, 1]) (r : Nat)
    (e0 : ∀ (p : Fin 1000) (k : Fin 512) (i : Fin 20000), i.val = r * 1000 + p.val → x0 (ix2 p k) = h (ix2 i k))
    (e1 : ∀ (p : Fin 1000) (i : Fin 20000), i.val = r * 1000 + p.val → x1 (ix2 p 0) = d (ix1 i))
    (e2 : ∀ (k : Fin 512) (q : Fin 512), x2 (ix2 k q) = W (ix2 k q))
    (y : S1000x512.Idx) (i : S20000x512.Idx) (hi0 : (i 0).val = r * 1000 + (y 0).val) (hi1 : (i 1).val = (y 1).val) :
    k1_pay1 (F := Ideal) x0 x1 x2 y = G h d W hc hb i := by
  obtain ⟨p, q, rfl⟩ : ∃ (p : Fin 1000) (q : Fin 512), y = ix2 p q := ⟨y 0, y 1, eq_ix2 y⟩
  obtain ⟨a, b, rfl⟩ : ∃ (a : Fin 20000) (b : Fin 512), i = ix2 a b := ⟨i 0, i 1, eq_ix2 i⟩
  have hbq : b = q := Fin.ext hi1
  subst hbq
  have ha : a.val = r * 1000 + p.val := hi0
  unfold G
  rw [Bodies.conv1_apply, DenseHost.scaledDot_apply]
  refine Finset.sum_congr rfl fun k _ => ?_
  rw [e0 p k a ha, e1 p a ha, e2]

/-- What point t writes back is block t of `G` of the entry contents. -/
theorem flushed_eq (c : Dev nD) (h : FVec Ideal S20000x512 .f32) (d : FVec Ideal S20000 .f32) (W : FVec Ideal S512x512 .f32)
    (hc : (⟨1, ![20000]⟩ : Shape).BroadcastsInDim ⟨2, ![20000, 1]⟩ ![0])
    (hb : (⟨2, ![20000, 1]⟩ : Shape).BroadcastsInDim ⟨2, ![20000, 512]⟩ ![0, 1])
    (hh : V c main_v30 = h) (hs : V c main_v32 = shapeCast S20000x1 d shapeCasts_S20000_S20000x1)
    (hW : V c main_v31 = truncf .bf16 W bitsLt_bf16_f32) (t : Fin cfg1.N) :
    (dat1 V c).flushed 3 t = ((cfg1.win 3).blk t).view.read (Elt Ideal) (G h d W hc hb) := by
  show (cfg1.win 3).cut (grid1.coords t) ((dat1 V c).after 3 t) = _
  rw [after1_3]
  unfold out1_3
  rw [View.canon_unit_zero hz]
  simp only [View.ld_unit_zero (S := S1000x512) hz, View.ld_unit_zero (S := S1000x1) hz, View.ld_unit_zero (S := S512x512) hz]
  obtain ⟨f0, f1, f2, f3, f4, f5, f6, f7⟩ := idx_facts t
  funext y
  rw [View.read_apply]
  refine point (iblk1 V c 0 t) (iblk1 V c 1 t) (iblk1 V c 2 t) h d W hc hb t.val ?_ ?_ ?_ y
    (((cfg1.win 3).blk t).view.emb y) ?_ ?_
  · intro p k i hi
    unfold iblk1
    rw [View.read_apply]
    show V c main_v30 _ = h _
    rw [hh]
    refine congrArg h (funext fun a => Fin.ext ?_)
    match a with
    | ⟨0, _⟩ => show win1_0.index t (0 : Fin 2) * 1000 + 1 * p.val = i.val; rw [f0, hi]; omega
    | ⟨1, _⟩ => show win1_0.index t (1 : Fin 2) * 512 + 1 * k.val = k.val; rw [f1]; omega
  · intro p i hi
    unfold iblk1
    rw [View.read_apply]
    show V c main_v32 _ = d _
    rw [hs]
    have he : ((cfg1.win 1).blk t).view.emb (ix2 p (0 : Fin 1)) = ix2 i (0 : Fin 1) := by
      funext a; apply Fin.ext
      match a with
      | ⟨0, _⟩ => show win1_1.index t (0 : Fin 2) * 1000 + 1 * p.val = i.val; rw [f2, hi]; omega
      | ⟨1, _⟩ => show win1_1.index t (1 : Fin 2) * 1 + 1 * 0 = 0; rw [f3]
    rw [he, Keepdims.cast_col_apply]
  · intro k q
    unfold iblk1
    rw [View.read_apply]
    show V c main_v31 _ = W _
    rw [hW, truncf_apply]
    refine congrArg W (funext fun a => Fin.ext ?_)
    match a with
    | ⟨0, _⟩ => show win1_2.index t (0 : Fin 2) * 512 + 1 * k.val = k.val; rw [f4]; omega
    | ⟨1, _⟩ => show win1_2.index t (1 : Fin 2) * 512 + 1 * q.val = q.val; rw [f5]; omega
  · show win1_3.index t (0 : Fin 2) * 1000 + 1 * (y 0).val = t.val * 1000 + (y 0).val
    rw [f6]; omega
  · show win1_3.index t (1 : Fin 2) * 512 + 1 * (y 1).val = (y 1).val
    rw [f7]; omega

/-- An index of the result is in point t's block iff each coordinate is in the block's range on its axis. -/
theorem mem_blk (t : Fin cfg1.N) (i : S20000x512.Idx) :
    i ∈ ((cfg1.win 3).blk t).view.set ↔ ∀ a : Fin 2, win1_3.index t a * S1000x512.size a ≤ (i a).val
      ∧ (i a).val < win1_3.index t a * S1000x512.size a + S1000x512.size a := by
  show i ∈ ((View.whole main_v33).slice (win1_3.rect t)).set ↔ _
  rw [View.set_slice_whole, Rect.mem_set_unit]
  exact Iff.rfl

/-- The 20 row blocks tile the result: row i is in the block of point i / 1000. -/
theorem cover (i : S20000x512.Idx) :
    ∃ t : Fin cfg1.N, (cfg1.win 3).flush t = true ∧ i ∈ ((cfg1.win 3).blk t).view.set := by
  have hi0 : (i 0).val < 20000 := (i 0).isLt
  have hi1 : (i 1).val < 512 := (i 1).isLt
  have hN : cfg1.N = 20 := N_1
  refine ⟨⟨(i 0).val / 1000, by rw [hN]; omega⟩, flush1_3 _, ?_⟩
  obtain ⟨f0, f1, f2, f3, f4, f5, f6, f7⟩ := idx_facts ⟨(i 0).val / 1000, by rw [hN]; omega⟩
  rw [mem_blk]
  intro a
  match a with
  | ⟨0, _⟩ =>
    show win1_3.index ⟨(i 0).val / 1000, _⟩ (0 : Fin 2) * 1000 ≤ (i 0).val
      ∧ (i 0).val < win1_3.index ⟨(i 0).val / 1000, _⟩ (0 : Fin 2) * 1000 + 1000
    rw [f6]; show (i 0).val / 1000 * 1000 ≤ (i 0).val ∧ (i 0).val < (i 0).val / 1000 * 1000 + 1000; omega
  | ⟨1, _⟩ =>
    show win1_3.index ⟨(i 0).val / 1000, _⟩ (1 : Fin 2) * 512 ≤ (i 1).val
      ∧ (i 1).val < win1_3.index ⟨(i 0).val / 1000, _⟩ (1 : Fin 2) * 512 + 512
    rw [f7]; omega

/-- The array the call leaves in its result buffer. -/
theorem final (c : Dev nD) (h : FVec Ideal S20000x512 .f32) (d : FVec Ideal S20000 .f32) (W : FVec Ideal S512x512 .f32)
    (hc : (⟨1, ![20000]⟩ : Shape).BroadcastsInDim ⟨2, ![20000, 1]⟩ ![0])
    (hb : (⟨2, ![20000, 1]⟩ : Shape).BroadcastsInDim ⟨2, ![20000, 512]⟩ ![0, 1])
    (hh : V c main_v30 = h) (hs : V c main_v32 = shapeCast S20000x1 d shapeCasts_S20000_S20000x1)
    (hW : V c main_v31 = truncf .bf16 W bitsLt_bf16_f32) :
    (dat1 V c).arrAt 3 cfg1.N = G h d W hc hb :=
  (dat1 V c).arrAt_eq_of_cover 3 (G h d W hc hb) (fun t _ => flushed_eq V c h d W hc hb hh hs hW t) cover

end Cert.KernelIdeal.Conv1

end
-- ==== Proof.Conv2.lean ====
/-
  The third graph-convolution pallas_call as one array. The call runs over 20 grid points; point t takes rows
  1000 t … 1000 t + 999 of the feature matrix and of the out-degree factors (held as a column), and the whole weight
  matrix, and writes rows 1000 t … 1000 t + 999 of the result. The 20 row blocks tile the result, and entry (i, j) of
  block i / 1000 is the sum over k of (h (i, k) * d i) * W (k, j): the array the call leaves is the reference's
  dot_general of the row-scaled features with the weights, whatever the feature matrix, the factors and the weights
  are at the call's entry.
-/
import proofs.«170863_j1554778161831_1_alg».proof.Proof.Gen.KernelIdeal.Frame
import proofs.«170863_j1554778161831_1_alg».proof.Proof.Bodies
import Idealize.ShloMosaic.Lib.Pipeline.Value

set_option maxRecDepth 16384

noncomputable section

open scoped BigOperators

namespace Cert.KernelIdeal.Conv2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the features, the factors and the result move one block of rows per
    point; the weights stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The array the call leaves: the reference's host text for the projection. -/
abbrev G (h : FVec Ideal S20000x512 .f32) (d : FVec Ideal S20000 .f32) (W : FVec Ideal S512x512 .f32)
    (hc : (⟨1, ![20000]⟩ : Shape).BroadcastsInDim ⟨2, ![20000, 1]⟩ ![0])
    (hb : (⟨2, ![20000, 1]⟩ : Shape).BroadcastsInDim ⟨2, ![20000, 512]⟩ ![0, 1]) : FVec Ideal S20000x512 .f32 :=
  Host.dotGeneral (DotDims.plain 20000 512 512) none
    (mulf h (broadcastInDim ⟨2, ![20000, 512]⟩ ![0, 1] hb (broadcastInDim ⟨2, ![20000, 1]⟩ ![0] hc d))) W

/-- One entry of one block: if the loaded blocks are rows r·1000 … of the features and of the factors, and the
    weights, the body's entry y is the array's entry i at row r·1000 + y's row and y's column. -/
theorem point (x0 : Vec Ideal S1000x512 .f32) (x1 : Vec Ideal S1000x1 .f32) (x2 : Vec Ideal S512x512 .bf16)
    (h : FVec Ideal S20000x512 .f32) (d : FVec Ideal S20000 .f32) (W : FVec Ideal S512x512 .f32)
    (hc : (⟨1, ![20000]⟩ : Shape).BroadcastsInDim ⟨2, ![20000, 1]⟩ ![0])
    (hb : (⟨2, ![20000, 1]⟩ : Shape).BroadcastsInDim ⟨2, ![20000, 512]⟩ ![0, 1]) (r : Nat)
    (e0 : ∀ (p : Fin 1000) (k : Fin 512) (i : Fin 20000), i.val = r * 1000 + p.val → x0 (ix2 p k) = h (ix2 i k))
    (e1 : ∀ (p : Fin 1000) (i : Fin 20000), i.val = r * 1000 + p.val → x1 (ix2 p 0) = d (ix1 i))
    (e2 : ∀ (k : Fin 512) (q : Fin 512), x2 (ix2 k q) = W (ix2 k q))
    (y : S1000x512.Idx) (i : S20000x512.Idx) (hi0 : (i 0).val = r * 1000 + (y 0).val) (hi1 : (i 1).val = (y 1).val) :
    k2_pay1 (F := Ideal) x0 x1 x2 y = G h d W hc hb i := by
  obtain ⟨p, q, rfl⟩ : ∃ (p : Fin 1000) (q : Fin 512), y = ix2 p q := ⟨y 0, y 1, eq_ix2 y⟩
  obtain ⟨a, b, rfl⟩ : ∃ (a : Fin 20000) (b : Fin 512), i = ix2 a b := ⟨i 0, i 1, eq_ix2 i⟩
  have hbq : b = q := Fin.ext hi1
  subst hbq
  have ha : a.val = r * 1000 + p.val := hi0
  unfold G
  rw [Bodies.conv2_apply, DenseHost.scaledDot_apply]
  refine Finset.sum_congr rfl fun k _ => ?_
  rw [e0 p k a ha, e1 p a ha, e2]

/-- What point t writes back is block t of `G` of the entry contents. -/
theorem flushed_eq (c : Dev nD) (h : FVec Ideal S20000x512 .f32) (d : FVec Ideal S20000 .f32) (W : FVec Ideal S512x512 .f32)
    (hc : (⟨1, ![20000]⟩ : Shape).BroadcastsInDim ⟨2, ![20000, 1]⟩ ![0])
    (hb : (⟨2, ![20000, 1]⟩ : Shape).BroadcastsInDim ⟨2, ![20000, 512]⟩ ![0, 1])
    (hh : V c main_v50 = h) (hs : V c main_v52 = shapeCast S20000x1 d shapeCasts_S20000_S20000x1)
    (hW : V c main_v51 = truncf .bf16 W bitsLt_bf16_f32) (t : Fin cfg2.N) :
    (dat2 V c).flushed 3 t = ((cfg2.win 3).blk t).view.read (Elt Ideal) (G h d W hc hb) := by
  show (cfg2.win 3).cut (grid2.coords t) ((dat2 V c).after 3 t) = _
  rw [after2_3]
  unfold out2_3
  rw [View.canon_unit_zero hz]
  simp only [View.ld_unit_zero (S := S1000x512) hz, View.ld_unit_zero (S := S1000x1) hz, View.ld_unit_zero (S := S512x512) hz]
  obtain ⟨f0, f1, f2, f3, f4, f5, f6, f7⟩ := idx_facts t
  funext y
  rw [View.read_apply]
  refine point (iblk2 V c 0 t) (iblk2 V c 1 t) (iblk2 V c 2 t) h d W hc hb t.val ?_ ?_ ?_ y
    (((cfg2.win 3).blk t).view.emb y) ?_ ?_
  · intro p k i hi
    unfold iblk2
    rw [View.read_apply]
    show V c main_v50 _ = h _
    rw [hh]
    refine congrArg h (funext fun a => Fin.ext ?_)
    match a with
    | ⟨0, _⟩ => show win2_0.index t (0 : Fin 2) * 1000 + 1 * p.val = i.val; rw [f0, hi]; omega
    | ⟨1, _⟩ => show win2_0.index t (1 : Fin 2) * 512 + 1 * k.val = k.val; rw [f1]; omega
  · intro p i hi
    unfold iblk2
    rw [View.read_apply]
    show V c main_v52 _ = d _
    rw [hs]
    have he : ((cfg2.win 1).blk t).view.emb (ix2 p (0 : Fin 1)) = ix2 i (0 : Fin 1) := by
      funext a; apply Fin.ext
      match a with
      | ⟨0, _⟩ => show win2_1.index t (0 : Fin 2) * 1000 + 1 * p.val = i.val; rw [f2, hi]; omega
      | ⟨1, _⟩ => show win2_1.index t (1 : Fin 2) * 1 + 1 * 0 = 0; rw [f3]
    rw [he, Keepdims.cast_col_apply]
  · intro k q
    unfold iblk2
    rw [View.read_apply]
    show V c main_v51 _ = W _
    rw [hW, truncf_apply]
    refine congrArg W (funext fun a => Fin.ext ?_)
    match a with
    | ⟨0, _⟩ => show win2_2.index t (0 : Fin 2) * 512 + 1 * k.val = k.val; rw [f4]; omega
    | ⟨1, _⟩ => show win2_2.index t (1 : Fin 2) * 512 + 1 * q.val = q.val; rw [f5]; omega
  · show win2_3.index t (0 : Fin 2) * 1000 + 1 * (y 0).val = t.val * 1000 + (y 0).val
    rw [f6]; omega
  · show win2_3.index t (1 : Fin 2) * 512 + 1 * (y 1).val = (y 1).val
    rw [f7]; omega

/-- An index of the result is in point t's block iff each coordinate is in the block's range on its axis. -/
theorem mem_blk (t : Fin cfg2.N) (i : S20000x512.Idx) :
    i ∈ ((cfg2.win 3).blk t).view.set ↔ ∀ a : Fin 2, win2_3.index t a * S1000x512.size a ≤ (i a).val
      ∧ (i a).val < win2_3.index t a * S1000x512.size a + S1000x512.size a := by
  show i ∈ ((View.whole main_v53).slice (win2_3.rect t)).set ↔ _
  rw [View.set_slice_whole, Rect.mem_set_unit]
  exact Iff.rfl

/-- The 20 row blocks tile the result: row i is in the block of point i / 1000. -/
theorem cover (i : S20000x512.Idx) :
    ∃ t : Fin cfg2.N, (cfg2.win 3).flush t = true ∧ i ∈ ((cfg2.win 3).blk t).view.set := by
  have hi0 : (i 0).val < 20000 := (i 0).isLt
  have hi1 : (i 1).val < 512 := (i 1).isLt
  have hN : cfg2.N = 20 := N_2
  refine ⟨⟨(i 0).val / 1000, by rw [hN]; omega⟩, flush2_3 _, ?_⟩
  obtain ⟨f0, f1, f2, f3, f4, f5, f6, f7⟩ := idx_facts ⟨(i 0).val / 1000, by rw [hN]; omega⟩
  rw [mem_blk]
  intro a
  match a with
  | ⟨0, _⟩ =>
    show win2_3.index ⟨(i 0).val / 1000, _⟩ (0 : Fin 2) * 1000 ≤ (i 0).val
      ∧ (i 0).val < win2_3.index ⟨(i 0).val / 1000, _⟩ (0 : Fin 2) * 1000 + 1000
    rw [f6]; show (i 0).val / 1000 * 1000 ≤ (i 0).val ∧ (i 0).val < (i 0).val / 1000 * 1000 + 1000; omega
  | ⟨1, _⟩ =>
    show win2_3.index ⟨(i 0).val / 1000, _⟩ (1 : Fin 2) * 512 ≤ (i 1).val
      ∧ (i 1).val < win2_3.index ⟨(i 0).val / 1000, _⟩ (1 : Fin 2) * 512 + 512
    rw [f7]; omega

/-- The array the call leaves in its result buffer. -/
theorem final (c : Dev nD) (h : FVec Ideal S20000x512 .f32) (d : FVec Ideal S20000 .f32) (W : FVec Ideal S512x512 .f32)
    (hc : (⟨1, ![20000]⟩ : Shape).BroadcastsInDim ⟨2, ![20000, 1]⟩ ![0])
    (hb : (⟨2, ![20000, 1]⟩ : Shape).BroadcastsInDim ⟨2, ![20000, 512]⟩ ![0, 1])
    (hh : V c main_v50 = h) (hs : V c main_v52 = shapeCast S20000x1 d shapeCasts_S20000_S20000x1)
    (hW : V c main_v51 = truncf .bf16 W bitsLt_bf16_f32) :
    (dat2 V c).arrAt 3 cfg2.N = G h d W hc hb :=
  (dat2 V c).arrAt_eq_of_cover 3 (G h d W hc hb) (fun t _ => flushed_eq V c h d W hc hb hh hs hW t) cover

end Cert.KernelIdeal.Conv2

end
-- ==== Proof.Head3.lean ====
/-
  The first head pallas_call as one array. The call has a single grid point, so each window's one block is its
  whole array: the body loads the input features, the weight matrix and the bias whole and stores its result whole.
  The array the call leaves is therefore the body's arithmetic applied to the three arrays as they stand at the
  call's entry. (Stated for any float values: nothing here reads an entry.)
-/
import proofs.«170863_j1554778161831_1_alg».proof.Proof.Gen.KernelIdeal.Frame
import Idealize.ShloMosaic.Lib.Pipeline.Value

set_option maxRecDepth 16384

noncomputable section

namespace Cert.KernelIdeal.Head3

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The one block of the input features is the array. -/
theorem iblk_x (c : Dev nD) : iblk3 V c 0 t3_0 = V c main_v81 := by
  have hz' : (fun a => win3_0.index t3_0 a * main_v81.ty.shape.size a) = fun _ => 0 := funext fun a => by fin_cases a <;> decide
  unfold iblk3
  exact Memref.read_access_unit_zero (Elt F) main_v81 hz' (fun a => by rw [congrFun hz' a]; simp) (V c main_v81)

/-- The one block of the weights is the array. -/
theorem iblk_w (c : Dev nD) : iblk3 V c 1 t3_0 = V c main_v82 := by
  have hz' : (fun a => win3_1.index t3_0 a * main_v82.ty.shape.size a) = fun _ => 0 := funext fun a => by fin_cases a <;> decide
  unfold iblk3
  exact Memref.read_access_unit_zero (Elt F) main_v82 hz' (fun a => by rw [congrFun hz' a]; simp) (V c main_v82)

/-- The one block of the bias is the array. -/
theorem iblk_b (c : Dev nD) : iblk3 V c 2 t3_0 = V c main_arg11 := by
  have hz' : (fun a => win3_2.index t3_0 a * main_arg11.ty.shape.size a) = fun _ => 0 := funext fun a => by fin_cases a; decide
  unfold iblk3
  exact Memref.read_access_unit_zero (Elt F) main_arg11 hz' (fun a => by rw [congrFun hz' a]; simp) (V c main_arg11)

/-- What the one point writes back: the body's result, whole. -/
theorem flushed_eq (c : Dev nD) (t : Fin cfg3.N) :
    (dat3 V c).flushed 3 t
      = ((cfg3.win 3).blk t).view.read (Elt F) (k3_pay1 (F := F) (V c main_v81) (V c main_v82) (V c main_arg11)) := by
  obtain rfl : t = t3_0 := fin_N3 t
  show (cfg3.win 3).cut (grid3.coords t3_0) ((dat3 V c).after 3 t3_0) = _
  rw [after3_3, iblk_x, iblk_w, iblk_b]
  unfold out3_3
  rw [View.canon_unit_zero hz2]
  simp only [View.ld_unit_zero (S := S64x512) hz2, View.ld_unit_zero (S := S512x512) hz2, View.ld_unit_zero (S := S512) hz1]
  have hz' : (fun a => win3_3.index t3_0 a * main_v83.ty.shape.size a) = fun _ => 0 := funext fun a => by fin_cases a <;> decide
  exact (Memref.read_access_unit_zero (Elt F) main_v83 hz' (fun a => by rw [congrFun hz' a]; simp) _).symm

/-- The array the call leaves in its result buffer. -/
theorem final (c : Dev nD) :
    (dat3 V c).arrAt 3 cfg3.N = k3_pay1 (F := F) (V c main_v81) (V c main_v82) (V c main_arg11) :=
  (dat3 V c).arrAt_eq_of_cover 3 _ (fun t _ => flushed_eq V c t) fun i =>
    ⟨t3_0, flush3_3 t3_0, by
      show i ∈ ((View.whole main_v83).slice (win3_3.rect t3_0)).set
      rw [View.set_slice_whole, Rect.mem_set_unit]
      intro a
      have h0 : (i 0 : Nat) < 64 := (i 0).isLt
      have h1 : (i 1 : Nat) < 512 := (i 1).isLt
      match a with
      | ⟨0, _⟩ =>
        show win3_3.index t3_0 0 * win3_3.size 0 ≤ (i 0 : Nat)
          ∧ (i 0 : Nat) < win3_3.index t3_0 0 * win3_3.size 0 + win3_3.xsize (grid3.coords t3_0) 0
        rw [show win3_3.index t3_0 0 * win3_3.size 0 = 0 from by decide +kernel,
          show win3_3.xsize (grid3.coords t3_0) 0 = 64 from by decide +kernel]; omega
      | ⟨1, _⟩ =>
        show win3_3.index t3_0 1 * win3_3.size 1 ≤ (i 1 : Nat)
          ∧ (i 1 : Nat) < win3_3.index t3_0 1 * win3_3.size 1 + win3_3.xsize (grid3.coords t3_0) 1
        rw [show win3_3.index t3_0 1 * win3_3.size 1 = 0 from by decide +kernel,
          show win3_3.xsize (grid3.coords t3_0) 1 = 512 from by decide +kernel]; omega⟩

end Cert.KernelIdeal.Head3

end
-- ==== Proof.Head4.lean ====
/-
  The second head pallas_call as one array. The call has a single grid point, so each window's one block is its
  whole array: the body loads the input features, the weight matrix and the bias whole and stores its result whole.
  The array the call leaves is therefore the body's arithmetic applied to the three arrays as they stand at the
  call's entry. (Stated for any float values: nothing here reads an entry.)
-/
import proofs.«170863_j1554778161831_1_alg».proof.Proof.Gen.KernelIdeal.Frame
import Idealize.ShloMosaic.Lib.Pipeline.Value

set_option maxRecDepth 16384

noncomputable section

namespace Cert.KernelIdeal.Head4

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The one block of the input features is the array. -/
theorem iblk_x (c : Dev nD) : iblk4 V c 0 t4_0 = V c main_v83 := by
  have hz' : (fun a => win4_0.index t4_0 a * main_v83.ty.shape.size a) = fun _ => 0 := funext fun a => by fin_cases a <;> decide
  unfold iblk4
  exact Memref.read_access_unit_zero (Elt F) main_v83 hz' (fun a => by rw [congrFun hz' a]; simp) (V c main_v83)

/-- The one block of the weights is the array. -/
theorem iblk_w (c : Dev nD) : iblk4 V c 1 t4_0 = V c main_v84 := by
  have hz' : (fun a => win4_1.index t4_0 a * main_v84.ty.shape.size a) = fun _ => 0 := funext fun a => by fin_cases a <;> decide
  unfold iblk4
  exact Memref.read_access_unit_zero (Elt F) main_v84 hz' (fun a => by rw [congrFun hz' a]; simp) (V c main_v84)

/-- The one block of the bias is the array. -/
theorem iblk_b (c : Dev nD) : iblk4 V c 2 t4_0 = V c main_arg13 := by
  have hz' : (fun a => win4_2.index t4_0 a * main_arg13.ty.shape.size a) = fun _ => 0 := funext fun a => by fin_cases a; decide
  unfold iblk4
  exact Memref.read_access_unit_zero (Elt F) main_arg13 hz' (fun a => by rw [congrFun hz' a]; simp) (V c main_arg13)

/-- What the one point writes back: the body's result, whole. -/
theorem flushed_eq (c : Dev nD) (t : Fin cfg4.N) :
    (dat4 V c).flushed 3 t
      = ((cfg4.win 3).blk t).view.read (Elt F) (k4_pay1 (F := F) (V c main_v83) (V c main_v84) (V c main_arg13)) := by
  obtain rfl : t = t4_0 := fin_N4 t
  show (cfg4.win 3).cut (grid4.coords t4_0) ((dat4 V c).after 3 t4_0) = _
  rw [after4_3, iblk_x, iblk_w, iblk_b]
  unfold out4_3
  rw [View.canon_unit_zero hz2]
  simp only [View.ld_unit_zero (S := S64x512) hz2, View.ld_unit_zero (S := S512x512) hz2, View.ld_unit_zero (S := S512) hz1]
  have hz' : (fun a => win4_3.index t4_0 a * main_v85.ty.shape.size a) = fun _ => 0 := funext fun a => by fin_cases a <;> decide
  exact (Memref.read_access_unit_zero (Elt F) main_v85 hz' (fun a => by rw [congrFun hz' a]; simp) _).symm

/-- The array the call leaves in its result buffer. -/
theorem final (c : Dev nD) :
    (dat4 V c).arrAt 3 cfg4.N = k4_pay1 (F := F) (V c main_v83) (V c main_v84) (V c main_arg13) :=
  (dat4 V c).arrAt_eq_of_cover 3 _ (fun t _ => flushed_eq V c t) fun i =>
    ⟨t4_0, flush4_3 t4_0, by
      show i ∈ ((View.whole main_v85).slice (win4_3.rect t4_0)).set
      rw [View.set_slice_whole, Rect.mem_set_unit]
      intro a
      have h0 : (i 0 : Nat) < 64 := (i 0).isLt
      have h1 : (i 1 : Nat) < 512 := (i 1).isLt
      match a with
      | ⟨0, _⟩ =>
        show win4_3.index t4_0 0 * win4_3.size 0 ≤ (i 0 : Nat)
          ∧ (i 0 : Nat) < win4_3.index t4_0 0 * win4_3.size 0 + win4_3.xsize (grid4.coords t4_0) 0
        rw [show win4_3.index t4_0 0 * win4_3.size 0 = 0 from by decide +kernel,
          show win4_3.xsize (grid4.coords t4_0) 0 = 64 from by decide +kernel]; omega
      | ⟨1, _⟩ =>
        show win4_3.index t4_0 1 * win4_3.size 1 ≤ (i 1 : Nat)
          ∧ (i 1 : Nat) < win4_3.index t4_0 1 * win4_3.size 1 + win4_3.xsize (grid4.coords t4_0) 1
        rw [show win4_3.index t4_0 1 * win4_3.size 1 = 0 from by decide +kernel,
          show win4_3.xsize (grid4.coords t4_0) 1 = 512 from by decide +kernel]; omega⟩

end Cert.KernelIdeal.Head4

end
-- ==== Proof.Head5.lean ====
/-
  The last head pallas_call as one array. The call has a single grid point, so each window's one block is its
  whole array: the body loads the input features, the weight matrix and the bias whole and stores its result whole.
  The array the call leaves is therefore the body's arithmetic applied to the three arrays as they stand at the
  call's entry. (Stated for any float values: nothing here reads an entry.)
-/
import proofs.«170863_j1554778161831_1_alg».proof.Proof.Gen.KernelIdeal.Frame
import Idealize.ShloMosaic.Lib.Pipeline.Value

set_option maxRecDepth 16384

noncomputable section

namespace Cert.KernelIdeal.Head5

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The one block of the input features is the array. -/
theorem iblk_x (c : Dev nD) : iblk5 V c 0 t5_0 = V c main_v85 := by
  have hz' : (fun a => win5_0.index t5_0 a * main_v85.ty.shape.size a) = fun _ => 0 := funext fun a => by fin_cases a <;> decide
  unfold iblk5
  exact Memref.read_access_unit_zero (Elt F) main_v85 hz' (fun a => by rw [congrFun hz' a]; simp) (V c main_v85)

/-- The one block of the weights is the array. -/
theorem iblk_w (c : Dev nD) : iblk5 V c 1 t5_0 = V c main_v86 := by
  have hz' : (fun a => win5_1.index t5_0 a * main_v86.ty.shape.size a) = fun _ => 0 := funext fun a => by fin_cases a <;> decide
  unfold iblk5
  exact Memref.read_access_unit_zero (Elt F) main_v86 hz' (fun a => by rw [congrFun hz' a]; simp) (V c main_v86)

/-- The one block of the bias is the array. -/
theorem iblk_b (c : Dev nD) : iblk5 V c 2 t5_0 = V c main_arg15 := by
  have hz' : (fun a => win5_2.index t5_0 a * main_arg15.ty.shape.size a) = fun _ => 0 := funext fun a => by fin_cases a; decide
  unfold iblk5
  exact Memref.read_access_unit_zero (Elt F) main_arg15 hz' (fun a => by rw [congrFun hz' a]; simp) (V c main_arg15)

/-- What the one point writes back: the body's result, whole. -/
theorem flushed_eq (c : Dev nD) (t : Fin cfg5.N) :
    (dat5 V c).flushed 3 t
      = ((cfg5.win 3).blk t).view.read (Elt F) (k5_pay1 (F := F) (V c main_v85) (V c main_v86) (V c main_arg15)) := by
  obtain rfl : t = t5_0 := fin_N5 t
  show (cfg5.win 3).cut (grid5.coords t5_0) ((dat5 V c).after 3 t5_0) = _
  rw [after5_3, iblk_x, iblk_w, iblk_b]
  unfold out5_3
  rw [View.canon_unit_zero hz2]
  simp only [View.ld_unit_zero (S := S64x512) hz2, View.ld_unit_zero (S := S512x16) hz2, View.ld_unit_zero (S := S16) hz1]
  have hz' : (fun a => win5_3.index t5_0 a * main_v87.ty.shape.size a) = fun _ => 0 := funext fun a => by fin_cases a <;> decide
  exact (Memref.read_access_unit_zero (Elt F) main_v87 hz' (fun a => by rw [congrFun hz' a]; simp) _).symm

/-- The array the call leaves in its result buffer. -/
theorem final (c : Dev nD) :
    (dat5 V c).arrAt 3 cfg5.N = k5_pay1 (F := F) (V c main_v85) (V c main_v86) (V c main_arg15) :=
  (dat5 V c).arrAt_eq_of_cover 3 _ (fun t _ => flushed_eq V c t) fun i =>
    ⟨t5_0, flush5_3 t5_0, by
      show i ∈ ((View.whole main_v87).slice (win5_3.rect t5_0)).set
      rw [View.set_slice_whole, Rect.mem_set_unit]
      intro a
      have h0 : (i 0 : Nat) < 64 := (i 0).isLt
      have h1 : (i 1 : Nat) < 16 := (i 1).isLt
      match a with
      | ⟨0, _⟩ =>
        show win5_3.index t5_0 0 * win5_3.size 0 ≤ (i 0 : Nat)
          ∧ (i 0 : Nat) < win5_3.index t5_0 0 * win5_3.size 0 + win5_3.xsize (grid5.coords t5_0) 0
        rw [show win5_3.index t5_0 0 * win5_3.size 0 = 0 from by decide +kernel,
          show win5_3.xsize (grid5.coords t5_0) 0 = 64 from by decide +kernel]; omega
      | ⟨1, _⟩ =>
        show win5_3.index t5_0 1 * win5_3.size 1 ≤ (i 1 : Nat)
          ∧ (i 1 : Nat) < win5_3.index t5_0 1 * win5_3.size 1 + win5_3.xsize (grid5.coords t5_0) 1
        rw [show win5_3.index t5_0 1 * win5_3.size 1 = 0 from by decide +kernel,
          show win5_3.xsize (grid5.coords t5_0) 1 = 16 from by decide +kernel]; omega⟩

end Cert.KernelIdeal.Head5

end
-- ==== Proof.LibCallBuffers.lean ====
/-
  Two small facts about a host program read as a list of operations (Lib/StableHlo/Run.lean), for any values:

  * `after_append`: the buffers' contents after a list of operations run in two parts — the second part starts from what
    the first part leaves. It lets a long program be read in pieces, each over the previous piece's results as atoms.
  * `ofBuf_toBuf`: a value stored into a called function's typed buffer and read back from it is the value (the two
    transports along the buffer's type equation cancel). A function that jax outlined (relu, log_softmax, where …)
    passes every intermediate value through such a pair; rewriting them away first leaves the operations' plain term.
-/
import Idealize.ShloMosaic.Lib.StableHlo.Run

namespace Idealize.ShloMosaic.StableHlo

variable {τ : Topo} {sig : RefSig} {Val : EltTy → Type}

/-- Running a list of operations in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Stored into a typed buffer and read back: the value. -/
theorem TRef.ofBuf_toBuf {T : BufTy} (x : TRef sig T) (v : T.Contents Val) : x.ofBuf (x.toBuf v) = v := by
  obtain ⟨r, h, _, _⟩ := x
  subst h
  rfl

end Idealize.ShloMosaic.StableHlo
-- ==== Proof.Walk.lean ====
/-
  The kernel program's result, stage by stage. Along the fold through @main's segments each buffer a later stage reads
  is one of the reference's stages of the same arguments (the reference read one operation at a time, each stage a
  function of @main's arguments): the two degree factors; after each graph-convolution pallas_call the projected
  features, which are the reference's dot_general of the row-scaled features (the call as one array); after the host
  operations that follow it — the gather along the edges' sources, the segment sum into their destinations, the
  in-degree factor, the bias and the maximum with zero, the same operations in both programs — the layer's output;
  after the third layer the per-graph mean; and after each head pallas_call the reference's dot_general plus bias
  (and maximum with zero). The gather and the segment sums are never opened: both programs apply them to equal arrays.
-/
import proofs.«170863_j1554778161831_1_alg».proof.Proof.Gen.KernelIdeal.Frame
import proofs.«170863_j1554778161831_1_alg».proof.Proof.Gen.ReferenceIdeal.Read
import proofs.«170863_j1554778161831_1_alg».proof.Proof.Keep
import proofs.«170863_j1554778161831_1_alg».proof.Proof.Bodies
import proofs.«170863_j1554778161831_1_alg».proof.Proof.Conv0
import proofs.«170863_j1554778161831_1_alg».proof.Proof.Conv1
import proofs.«170863_j1554778161831_1_alg».proof.Proof.Conv2
import proofs.«170863_j1554778161831_1_alg».proof.Proof.Head3
import proofs.«170863_j1554778161831_1_alg».proof.Proof.Head4
import proofs.«170863_j1554778161831_1_alg».proof.Proof.Head5
import proofs.«170863_j1554778161831_1_alg».proof.Proof.LibCallBuffers

set_option maxRecDepth 16384

noncomputable section

namespace Cert.KernelIdeal.Walk

open Cert.KernelIdeal Cert.KernelIdeal.Gen Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Before the first pallas_call: the degree factors, the first weights, the factor column -/

/-- The out-degree factor is the reference's. -/
theorem dOut5 : W5 m ρ c (Proc.devRef .tc main_v8) = val_main_v8 (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v8) = _
  after_results_simp
  simp only [StableHlo.TRef.ofBuf_toBuf]
  rfl

/-- The in-degree factor is the reference's. -/
theorem dIn5 : W5 m ρ c (Proc.devRef .tc main_v10) = val_main_v10 (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_v10) = _
  after_results_simp
  simp only [StableHlo.TRef.ofBuf_toBuf]
  rfl

/-- The first weights in the shorter format. -/
theorem w0_5 : W5 m ρ c (Proc.devRef .tc main_v11) = (truncf .bf16 (m ((c : Thread nD τ).loc main_arg4) : FVec Ideal S128x512 .f32) bitsLt_bf16_f32 : FVec Ideal S128x512 .bf16) := by
  show StableHlo.after hostOps0_4 (StableHlo.after hostOps0_3 (StableHlo.after hostOps0_2 (StableHlo.after hostOps0_1 (StableHlo.after hostOps0 (W0 m ρ c))))) (Proc.devRef .tc main_v11) = _
  after_results_simp

/-- The out-degree factor as a column. -/
theorem s0_5 : W5 m ρ c (Proc.devRef .tc main_v12) = shapeCast S20000x1 (val_main_v8 (m ((c : Thread nD τ).loc main_arg1))) shapeCasts_S20000_S20000x1 := by
  show StableHlo.after hostOps0_4 (StableHlo.after hostOps0_3 (StableHlo.after hostOps0_2 (StableHlo.after hostOps0_1 (StableHlo.after hostOps0 (W0 m ρ c))))) (Proc.devRef .tc main_v12) = _
  after_results_simp
  simp only [StableHlo.TRef.ofBuf_toBuf]
  rfl

/-! ## A kept buffer at any later boundary -/

theorem argAt {Y : Valuation τ sig (Elt Ideal)} (hY : Keep.Same Keep.kept Y (W5 m ρ c)) (b : Ref sig .tc) (hb : b ∈ Keep.args) :
    Y (Proc.devRef .tc b) = m ((c : Thread nD τ).loc b) :=
  (hY.args b hb).trans (Keep.arg_at5 m ρ c b hb)

theorem dOutAt {Y : Valuation τ sig (Elt Ideal)} (hY : Keep.Same Keep.kept Y (W5 m ρ c)) :
    Y (Proc.devRef .tc main_v8) = val_main_v8 (m ((c : Thread nD τ).loc main_arg1)) :=
  (hY main_v8 (by simp only [Keep.kept, List.mem_cons, List.mem_singleton, true_or, or_true])).trans (dOut5 m ρ c)

theorem dInAt {Y : Valuation τ sig (Elt Ideal)} (hY : Keep.Same Keep.kept Y (W5 m ρ c)) :
    Y (Proc.devRef .tc main_v10) = val_main_v10 (m ((c : Thread nD τ).loc main_arg2)) :=
  (hY main_v10 (by simp only [Keep.kept, List.mem_cons, List.mem_singleton, true_or, or_true])).trans (dIn5 m ρ c)

/-! ## Layer 1 -/

/-- The first pallas_call leaves the reference's first projection. -/
theorem conv0 : W6 m ρ c (Proc.devRef .tc main_v13) = val_main_v14 (m ((c : Thread nD τ).loc main_arg0)) (m ((c : Thread nD τ).loc main_arg1)) (m ((c : Thread nD τ).loc main_arg4)) :=
  (W6_arr m ρ c 3).trans ((Conv0.final (V5 m ρ) c (m ((c : Thread nD τ).loc main_arg0)) (val_main_v8 (m ((c : Thread nD τ).loc main_arg1))) (m ((c : Thread nD τ).loc main_arg4))
    Cert.ReferenceIdeal.Facts₀.bcast_S20000_S20000x1_0 Cert.ReferenceIdeal.Facts₀.bcast_S20000x1_S20000x128_0_1
    (Keep.arg_at5 m ρ c main_arg0 (by simp only [Keep.args, List.mem_cons, List.mem_singleton, true_or, or_true])) (s0_5 m ρ c) (w0_5 m ρ c)).trans rfl)

/-- The host operations after it give the reference's first layer output. -/
theorem layer1 : W9 m ρ c (Proc.devRef .tc main_v30) = val_main_v31 (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps1_2 (StableHlo.after hostOps1_1 (StableHlo.after hostOps1 (W6 m ρ c))) (Proc.devRef .tc main_v30) = _
  after_results_simp
  simp only [StableHlo.TRef.ofBuf_toBuf]
  rw [conv0 m ρ c, (argAt m ρ c (Keep.same6 m ρ c) main_arg1 (by simp only [Keep.args, List.mem_cons, List.mem_singleton, true_or, or_true])), (argAt m ρ c (Keep.same6 m ρ c) main_arg2 (by simp only [Keep.args, List.mem_cons, List.mem_singleton, true_or, or_true])), (dInAt m ρ c (Keep.same6 m ρ c)), (argAt m ρ c (Keep.same6 m ρ c) main_arg5 (by simp only [Keep.args, List.mem_cons, List.mem_singleton, true_or, or_true]))]
  rfl

theorem w1_9 : W9 m ρ c (Proc.devRef .tc main_v31) = (truncf .bf16 (m ((c : Thread nD τ).loc main_arg6) : FVec Ideal S512x512 .f32) bitsLt_bf16_f32 : FVec Ideal S512x512 .bf16) := by
  show StableHlo.after hostOps1_2 (StableHlo.after hostOps1_1 (StableHlo.after hostOps1 (W6 m ρ c))) (Proc.devRef .tc main_v31) = _
  after_results_simp
  rw [(argAt m ρ c (Keep.same6 m ρ c) main_arg6 (by simp only [Keep.args, List.mem_cons, List.mem_singleton, true_or, or_true]))]

theorem s1_9 : W9 m ρ c (Proc.devRef .tc main_v32) = shapeCast S20000x1 (val_main_v8 (m ((c : Thread nD τ).loc main_arg1))) shapeCasts_S20000_S20000x1 := by
  show StableHlo.after hostOps1_2 (StableHlo.after hostOps1_1 (StableHlo.after hostOps1 (W6 m ρ c))) (Proc.devRef .tc main_v32) = _
  after_results_simp
  rw [(dOutAt m ρ c (Keep.same6 m ρ c))]
  rfl

/-! ## Layer 2 -/

theorem conv1 : W10 m ρ c (Proc.devRef .tc main_v33) = val_main_v35 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W10_arr m ρ c 3).trans ((Conv1.final (V9 m ρ) c (val_main_v31 (m ((c : Thread nD τ).loc main_arg0)) (m ((c : Thread nD τ).loc main_arg1)) (m ((c : Thread nD τ).loc main_arg2)) (m ((c : Thread nD τ).loc main_arg4)) (m ((c : Thread nD τ).loc main_arg5))) (val_main_v8 (m ((c : Thread nD τ).loc main_arg1))) (m ((c : Thread nD τ).loc main_arg6))
    Cert.ReferenceIdeal.Facts₀.bcast_S20000_S20000x1_0 Cert.ReferenceIdeal.Facts₀.bcast_S20000x1_S20000x512_0_1
    (layer1 m ρ c) (s1_9 m ρ c) (w1_9 m ρ c)).trans rfl)

theorem layer2 : W13 m ρ c (Proc.devRef .tc main_v50) = val_main_v52 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps2_2 (StableHlo.after hostOps2_1 (StableHlo.after hostOps2 (W10 m ρ c))) (Proc.devRef .tc main_v50) = _
  after_results_simp
  simp only [StableHlo.TRef.ofBuf_toBuf]
  rw [conv1 m ρ c, (argAt m ρ c (Keep.same10 m ρ c) main_arg1 (by simp only [Keep.args, List.mem_cons, List.mem_singleton, true_or, or_true])), (argAt m ρ c (Keep.same10 m ρ c) main_arg2 (by simp only [Keep.args, List.mem_cons, List.mem_singleton, true_or, or_true])), (dInAt m ρ c (Keep.same10 m ρ c)), (argAt m ρ c (Keep.same10 m ρ c) main_arg7 (by simp only [Keep.args, List.mem_cons, List.mem_singleton, true_or, or_true]))]
  rfl

theorem w2_13 : W13 m ρ c (Proc.devRef .tc main_v51) = (truncf .bf16 (m ((c : Thread nD τ).loc main_arg8) : FVec Ideal S512x512 .f32) bitsLt_bf16_f32 : FVec Ideal S512x512 .bf16) := by
  show StableHlo.after hostOps2_2 (StableHlo.after hostOps2_1 (StableHlo.after hostOps2 (W10 m ρ c))) (Proc.devRef .tc main_v51) = _
  after_results_simp
  rw [(argAt m ρ c (Keep.same10 m ρ c) main_arg8 (by simp only [Keep.args, List.mem_cons, List.mem_singleton, true_or, or_true]))]

theorem s2_13 : W13 m ρ c (Proc.devRef .tc main_v52) = shapeCast S20000x1 (val_main_v8 (m ((c : Thread nD τ).loc main_arg1))) shapeCasts_S20000_S20000x1 := by
  show StableHlo.after hostOps2_2 (StableHlo.after hostOps2_1 (StableHlo.after hostOps2 (W10 m ρ c))) (Proc.devRef .tc main_v52) = _
  after_results_simp
  rw [(dOutAt m ρ c (Keep.same10 m ρ c))]
  rfl

/-! ## Layer 3 and the per-graph mean -/

theorem conv2 : W14 m ρ c (Proc.devRef .tc main_v53) = val_main_v56 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  (W14_arr m ρ c 3).trans ((Conv2.final (V13 m ρ) c (val_main_v52 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (val_main_v8 (m ((c : Thread nD τ).loc main_arg1))) (m ((c : Thread nD τ).loc main_arg8))
    Cert.ReferenceIdeal.Facts₀.bcast_S20000_S20000x1_0 Cert.ReferenceIdeal.Facts₀.bcast_S20000x1_S20000x512_0_1
    (layer2 m ρ c) (s2_13 m ρ c) (w2_13 m ρ c)).trans rfl)

/-- The third layer's host operations and the mean over each graph's nodes. -/
theorem pooled : W19 m ρ c (Proc.devRef .tc main_v81) = val_main_v84 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3_4 (StableHlo.after hostOps3_3 (StableHlo.after hostOps3_2 (StableHlo.after hostOps3_1 (StableHlo.after hostOps3 (W14 m ρ c))))) (Proc.devRef .tc main_v81) = _
  after_results_simp
  simp only [StableHlo.TRef.ofBuf_toBuf]
  rw [conv2 m ρ c, (argAt m ρ c (Keep.same14 m ρ c) main_arg1 (by simp only [Keep.args, List.mem_cons, List.mem_singleton, true_or, or_true])), (argAt m ρ c (Keep.same14 m ρ c) main_arg2 (by simp only [Keep.args, List.mem_cons, List.mem_singleton, true_or, or_true])), (dInAt m ρ c (Keep.same14 m ρ c)), (argAt m ρ c (Keep.same14 m ρ c) main_arg9 (by simp only [Keep.args, List.mem_cons, List.mem_singleton, true_or, or_true])), (argAt m ρ c (Keep.same14 m ρ c) main_arg3 (by simp only [Keep.args, List.mem_cons, List.mem_singleton, true_or, or_true]))]
  rfl

theorem w3_19 : W19 m ρ c (Proc.devRef .tc main_v82) = (truncf .bf16 (m ((c : Thread nD τ).loc main_arg10) : FVec Ideal S512x512 .f32) bitsLt_bf16_f32 : FVec Ideal S512x512 .bf16) := by
  show StableHlo.after hostOps3_4 (StableHlo.after hostOps3_3 (StableHlo.after hostOps3_2 (StableHlo.after hostOps3_1 (StableHlo.after hostOps3 (W14 m ρ c))))) (Proc.devRef .tc main_v82) = _
  after_results_simp
  rw [(argAt m ρ c (Keep.same14 m ρ c) main_arg10 (by simp only [Keep.args, List.mem_cons, List.mem_singleton, true_or, or_true]))]

/-! ## The head -/

theorem head3 : W20 m ρ c (Proc.devRef .tc main_v83) = val_main_v89 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W20_arr m ρ c 3).trans ((Head3.final (V19 m ρ) c).trans ?_)
  show k3_pay1 (F := Ideal) (W19 m ρ c (Proc.devRef .tc main_v81)) (W19 m ρ c (Proc.devRef .tc main_v82)) (W19 m ρ c (Proc.devRef .tc main_arg11)) = _
  rw [pooled m ρ c, w3_19 m ρ c, (argAt m ρ c (Keep.same19 m ρ c) main_arg11 (by simp only [Keep.args, List.mem_cons, List.mem_singleton, true_or, or_true]))]
  exact (Bodies.head3_eq _ _ _ Cert.ReferenceIdeal.Facts₀.bcast_S512_S1x512_1 Cert.ReferenceIdeal.Facts₀.bcast_S1x512_S64x512_0_1 Cert.ReferenceIdeal.Facts₀.bcast_S_S64x512).trans rfl

theorem x4_21 : W21 m ρ c (Proc.devRef .tc main_v83) = W20 m ρ c (Proc.devRef .tc main_v83) := by
  show StableHlo.after hostOps4 (W20 m ρ c) (Proc.devRef .tc main_v83) = _
  after_results_simp

theorem w4_21 : W21 m ρ c (Proc.devRef .tc main_v84) = (truncf .bf16 (m ((c : Thread nD τ).loc main_arg12) : FVec Ideal S512x512 .f32) bitsLt_bf16_f32 : FVec Ideal S512x512 .bf16) := by
  show StableHlo.after hostOps4 (W20 m ρ c) (Proc.devRef .tc main_v84) = _
  after_results_simp
  rw [(argAt m ρ c (Keep.same20 m ρ c) main_arg12 (by simp only [Keep.args, List.mem_cons, List.mem_singleton, true_or, or_true]))]

theorem head4 : W22 m ρ c (Proc.devRef .tc main_v85) = val_main_v94 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W22_arr m ρ c 3).trans ((Head4.final (V21 m ρ) c).trans ?_)
  show k4_pay1 (F := Ideal) (W21 m ρ c (Proc.devRef .tc main_v83)) (W21 m ρ c (Proc.devRef .tc main_v84)) (W21 m ρ c (Proc.devRef .tc main_arg13)) = _
  rw [x4_21 m ρ c, head3 m ρ c, w4_21 m ρ c, (argAt m ρ c (Keep.same21 m ρ c) main_arg13 (by simp only [Keep.args, List.mem_cons, List.mem_singleton, true_or, or_true]))]
  exact (Bodies.head4_eq _ _ _ Cert.ReferenceIdeal.Facts₀.bcast_S512_S1x512_1 Cert.ReferenceIdeal.Facts₀.bcast_S1x512_S64x512_0_1 Cert.ReferenceIdeal.Facts₀.bcast_S_S64x512).trans rfl

theorem x5_23 : W23 m ρ c (Proc.devRef .tc main_v85) = W22 m ρ c (Proc.devRef .tc main_v85) := by
  show StableHlo.after hostOps5 (W22 m ρ c) (Proc.devRef .tc main_v85) = _
  after_results_simp

theorem w5_23 : W23 m ρ c (Proc.devRef .tc main_v86) = (truncf .bf16 (m ((c : Thread nD τ).loc main_arg14) : FVec Ideal S512x16 .f32) bitsLt_bf16_f32 : FVec Ideal S512x16 .bf16) := by
  show StableHlo.after hostOps5 (W22 m ρ c) (Proc.devRef .tc main_v86) = _
  after_results_simp
  rw [(argAt m ρ c (Keep.same22 m ρ c) main_arg14 (by simp only [Keep.args, List.mem_cons, List.mem_singleton, true_or, or_true]))]

/-- The kernel program's result buffer holds the reference's result of the same arguments. -/
theorem result : W24 m ρ c (Proc.devRef .tc main_v87) = val_main_v98 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W24_arr m ρ c 3).trans ((Head5.final (V23 m ρ) c).trans ?_)
  show k5_pay1 (F := Ideal) (W23 m ρ c (Proc.devRef .tc main_v85)) (W23 m ρ c (Proc.devRef .tc main_v86)) (W23 m ρ c (Proc.devRef .tc main_arg15)) = _
  rw [x5_23 m ρ c, head4 m ρ c, w5_23 m ρ c, (argAt m ρ c (Keep.same23 m ρ c) main_arg15 (by simp only [Keep.args, List.mem_cons, List.mem_singleton, true_or, or_true]))]
  exact (Bodies.head5_eq _ _ _ Cert.ReferenceIdeal.Facts₀.bcast_S16_S1x16_1 Cert.ReferenceIdeal.Facts₀.bcast_S1x16_S64x16_0_1).trans rfl

end Cert.KernelIdeal.Walk

end
-- ==== Proof.lean ====
/-
  A three-layer graph convolution network with mean pooling and a three-layer head, over 20000 nodes, 160000 edges and
  64 graphs: the Pallas program against its jnp reference, as extended reals.

  Both programs compute, from the edges' sources and destinations, the nodes' out- and in-degree factors
  1/sqrt(max(degree, 1)); then three times: scale each node's features by its out-degree factor and multiply by the
  layer's weights, gather the result along the edges' sources, sum it into the edges' destinations, scale by the
  in-degree factor, add the bias, take the maximum with zero; then the mean of the nodes' features over each graph;
  then twice a matrix product plus bias with the maximum with zero, and once without. They differ only in how the six
  matrix products are computed. The kernel program runs each as a pallas_call — the three projections over twenty
  blocks of a thousand rows each, with the weights and the scaled rows cast to a shorter float format; the head's over
  one block — where the reference writes one dot_general. At the ideal values a change of float format is the
  identity and a matrix product into the zero accumulator is the plain sum over the contracted coordinate, so block
  i / 1000 of a projection holds, in row i, the reference's row i; the twenty blocks tile the array; and each head call
  is the reference's dot_general, bias and maximum entry by entry. The row scaling is applied before the product in
  both programs, so no law of the extended reals beyond the sum's own definition is used and the precondition is never
  opened. Everything else — the gathers, the segment sums, the degree factors, the pooling — is the same text applied
  to equal arrays, and is carried unopened.

  The frames: the two kernel programs' are the generated frame certificates (six pallas_calls of one control case
  each); the reference's is its generated run with the result dropped. `preserves` is `True`: the ideal pass
  rewrote nothing.
-/
import proofs.«170863_j1554778161831_1_alg».proof.Defs
import proofs.«170863_j1554778161831_1_alg».proof.Proof.Gen.Kernel
import proofs.«170863_j1554778161831_1_alg».proof.Proof.Gen.Kernel.Frame
import proofs.«170863_j1554778161831_1_alg».proof.Proof.Gen.KernelIdeal
import proofs.«170863_j1554778161831_1_alg».proof.Proof.Gen.KernelIdeal.Frame
import proofs.«170863_j1554778161831_1_alg».proof.Proof.Gen.ReferenceIdeal
import proofs.«170863_j1554778161831_1_alg».proof.Proof.Gen.Pre_finite_inputs
import proofs.«170863_j1554778161831_1_alg».proof.Proof.Gen.ReferenceIdeal.Run
import proofs.«170863_j1554778161831_1_alg».proof.Proof.Gen.ReferenceIdeal.Read
import proofs.«170863_j1554778161831_1_alg».proof.Proof.KernelRun
import proofs.«170863_j1554778161831_1_alg».proof.Proof.Walk
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the same result: the kernel program's
    result buffer holds the reference's result term of its own arguments (the walk through its segments), and the
    arguments agree. -/
theorem algebraic : Cert.algebraic_KernelIdeal_ReferenceIdeal := by
  intro m ρ m' ρ' _ hagree
  refine ⟨fun c => Cert.KernelIdeal.Gen.W24 m ρ c (Proc.devRef .tc Cert.KernelIdeal.main_v87), ?_, ?_⟩
  · exact (θ_run Cert.KernelIdeal.defs _ _).mono (fun r h c =>
      ⟨h c _ (Cert.KernelIdeal.Gen.mem_uc Cert.KernelIdeal.main_v87 (by decide)),
       (h c _ (Cert.KernelIdeal.Gen.mem_uc Cert.KernelIdeal.main_arg0 (by decide))).trans (Cert.KernelIdeal.Gen.W24_main_arg0 m ρ c),
       (h c _ (Cert.KernelIdeal.Gen.mem_uc Cert.KernelIdeal.main_arg1 (by decide))).trans (Cert.KernelIdeal.Gen.W24_main_arg1 m ρ c),
       (h c _ (Cert.KernelIdeal.Gen.mem_uc Cert.KernelIdeal.main_arg2 (by decide))).trans (Cert.KernelIdeal.Gen.W24_main_arg2 m ρ c),
       (h c _ (Cert.KernelIdeal.Gen.mem_uc Cert.KernelIdeal.main_arg3 (by decide))).trans (Cert.KernelIdeal.Gen.W24_main_arg3 m ρ c),
       (h c _ (Cert.KernelIdeal.Gen.mem_uc Cert.KernelIdeal.main_arg4 (by decide))).trans (Cert.KernelIdeal.Gen.W24_main_arg4 m ρ c),
       (h c _ (Cert.KernelIdeal.Gen.mem_uc Cert.KernelIdeal.main_arg5 (by decide))).trans (Cert.KernelIdeal.Gen.W24_main_arg5 m ρ c),
       (h c _ (Cert.KernelIdeal.Gen.mem_uc Cert.KernelIdeal.main_arg6 (by decide))).trans (Cert.KernelIdeal.Gen.W24_main_arg6 m ρ c),
       (h c _ (Cert.KernelIdeal.Gen.mem_uc Cert.KernelIdeal.main_arg7 (by decide))).trans (Cert.KernelIdeal.Gen.W24_main_arg7 m ρ c),
       (h c _ (Cert.KernelIdeal.Gen.mem_uc Cert.KernelIdeal.main_arg8 (by decide))).trans (Cert.KernelIdeal.Gen.W24_main_arg8 m ρ c),
       (h c _ (Cert.KernelIdeal.Gen.mem_uc Cert.KernelIdeal.main_arg9 (by decide))).trans (Cert.KernelIdeal.Gen.W24_main_arg9 m ρ c),
       (h c _ (Cert.KernelIdeal.Gen.mem_uc Cert.KernelIdeal.main_arg10 (by decide))).trans (Cert.KernelIdeal.Gen.W24_main_arg10 m ρ c),
       (h c _ (Cert.KernelIdeal.Gen.mem_uc Cert.KernelIdeal.main_arg11 (by decide))).trans (Cert.KernelIdeal.Gen.W24_main_arg11 m ρ c),
       (h c _ (Cert.KernelIdeal.Gen.mem_uc Cert.KernelIdeal.main_arg12 (by decide))).trans (Cert.KernelIdeal.Gen.W24_main_arg12 m ρ c),
       (h c _ (Cert.KernelIdeal.Gen.mem_uc Cert.KernelIdeal.main_arg13 (by decide))).trans (Cert.KernelIdeal.Gen.W24_main_arg13 m ρ c),
       (h c _ (Cert.KernelIdeal.Gen.mem_uc Cert.KernelIdeal.main_arg14 (by decide))).trans (Cert.KernelIdeal.Gen.W24_main_arg14 m ρ c),
       (h c _ (Cert.KernelIdeal.Gen.mem_uc Cert.KernelIdeal.main_arg15 (by decide))).trans (Cert.KernelIdeal.Gen.W24_main_arg15 m ρ c)⟩) (Cert.KernelIdeal.Whole.run_fold m ρ)
  · refine (θ_run Cert.ReferenceIdeal.defs _ _).mono (fun _ h c => ⟨(h c).1.trans ?_, (h c).2⟩) (Cert.ReferenceIdeal.Value.run (F := Ideal) m' ρ')
    obtain ⟨h0, h1, h2, h3, h4, h5, h6, h7, h8, h9, h10, h11, h12, h13, h14, h15⟩ := hagree c
    rw [Cert.ReferenceIdeal.Read.val_main_v98_eq, h0, h1, h2, h3, h4, h5, h6, h7, h8, h9, h10, h11, h12, h13, h14, h15]
    exact (Cert.KernelIdeal.Walk.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
